-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 21
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024, .i32⟩
  | .local _ .vmem, ⟨5, _⟩ => ⟨S1024, .i32⟩
  | .local _ .vmem, ⟨6, _⟩ => ⟨S1024, .i32⟩
  | .local _ .vmem, ⟨7, _⟩ => ⟨S1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v63 : BitVec 1 := Scalar.cmpi .eq arg1 c3_i32
  let v64 : BitVec 32 := Scalar.extui v63
  let c0_i32_24 : BitVec 32 := 0#32
  let v65 : BitVec 1 := Scalar.cmpi .ne v64 c0_i32_24
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  inb_S1024_S1024_0 : ∀ a, (![0] : Fin 1 → Nat) a + S1024.size a ≤ S1024.size a
  h_S1024 : 0 < S1024.numel
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reducesTo_S4096x1_S_d0_1 : S4096x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .i32 = 32 ∨ (Rect.block (s := S4096) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .i32 = 32 ∨ (Rect.block (s := S4096) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v4) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S128x4096 : Shape := ⟨2, ![128, 4096]⟩
abbrev S4096x4096 : Shape := ⟨2, ![4096, 4096]⟩
abbrev S1x4096 : Shape := ⟨2, ![1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S128x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .i1⟩
  | .hbm, ⟨29, _⟩ => ⟨S4096x4096, .i1⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S_, .i1⟩
  | .hbm, ⟨44, _⟩ => ⟨S4096, .i1⟩
  | .hbm, ⟨45, _⟩ => ⟨S_, .i1⟩
  | .hbm, ⟨46, _⟩ => ⟨S4096, .i1⟩
  | .hbm, ⟨47, _⟩ => ⟨S4096, .i1⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S4096, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_call3_cst : Ref sig .tc := ⟨.hbm, 52, rfl⟩
abbrev main_call3_v0 : Ref sig .tc := ⟨.hbm, 53, rfl⟩
abbrev main_v32 : Ref sig .tc := ⟨.hbm, 54, rfl⟩
abbrev main_cst_8 : Ref sig .tc := ⟨.hbm, 55, rfl⟩
abbrev main_call4_v0 : Ref sig .tc := ⟨.hbm, 56, rfl⟩
abbrev main_call4_v1 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_c_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  transposes_S4096x128_S128x4096_1_0 : S4096x128.Transposes [1, 0] S128x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  natLt_1_32 : 1 < 32
  dot_S4096x128_S128x4096_S4096x4096_1_0_0_1_n_n_wf : DotDims.WF S4096x128 S128x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.FrameK.Data.lean ====
import proofs.«134814_j36069135351986_1_alg».proof.Proof.Gen.Kernel.Launch
import proofs.«134814_j36069135351986_1_alg».proof.Proof.Gen.Kernel.Skeleton
import proofs.«134814_j36069135351986_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The triplet kernel's pipeline: what every buffer holds, point by point

The grid has 16 points, `t = 4 a + b`: row run `a`, column run `b`. At every point the body computes, from the
two row-run blocks and the two label-run blocks, four columns of 1024 values (the tile's farthest positive, nearest
negative and the two indicators). At `b = 0` it stores them into its four scratch columns; at `b > 0` it joins them
into the scratch columns by max / min; at `b = 3` it also stores the row losses and the row indicators, computed
from the scratch columns, into the two output blocks, which the pipeline writes back there and nowhere else.
So the scratch columns after point `t` are a recursion on `t` that restarts at every `b = 0`, and the region's
invariant between points is the four scratch columns at that recursion's value.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: after the row norms and the division by them. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The three branches, decided by the column run -/

/-- `b = 0`: the scratch columns are reset. -/
abbrev cond1 (i : grid0.Coords) : Prop := (Scalar.cmpi .ne (Scalar.extui (Scalar.cmpi .eq (BitVec.ofNat 32 (i 1).val) 0#32)) 0#32) = 1#1
/-- `b > 0`: the scratch columns are joined into. -/
abbrev cond2 (i : grid0.Coords) : Prop := (Scalar.cmpi .ne (Scalar.extui (Scalar.cmpi .sgt (BitVec.ofNat 32 (i 1).val) 0#32)) 0#32) = 1#1
/-- `b = 3`: the outputs are stored. -/
abbrev cond3 (i : grid0.Coords) : Prop := k0_cond3 i = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ ¬ t.val % 4 = 0 :=
  (by decide +kernel : ∀ t : Fin grid0.N, cond2 (grid0.coords t) ↔ ¬ t.val % 4 = 0)
theorem hcond3 : ∀ t : Fin cfg0.N, cond3 (grid0.coords t) ↔ t.val % 4 = 3 :=
  (by decide +kernel : ∀ t : Fin grid0.N, cond3 (grid0.coords t) ↔ t.val % 4 = 3)

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬cond3 (grid0.coords t) → cfg0.idle 4 (grid0.coords t) = true := by decide +kernel
theorem idle5 : ∀ t : Fin cfg0.N, ¬cond3 (grid0.coords t) → cfg0.idle 5 (grid0.coords t) = true := by decide +kernel
theorem live4 : ∀ t : Fin cfg0.N, cond3 (grid0.coords t) → cfg0.idle 4 (grid0.coords t) = false := by decide +kernel
theorem live5 : ∀ t : Fin cfg0.N, cond3 (grid0.coords t) → cfg0.idle 5 (grid0.coords t) = false := by decide +kernel
theorem noFlush4 : ∀ t : Fin cfg0.N, ¬cond3 (grid0.coords t) → (cfg0.win 4).flush t = false := by decide +kernel
theorem noFlush5 : ∀ t : Fin cfg0.N, ¬cond3 (grid0.coords t) → (cfg0.win 5).flush t = false := by decide +kernel

/-! ## The staging and scratch memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3

/-! ## The scratch columns after each point -/

/-- Four columns of 1024 values. -/
abbrev Cols (F : FTy → Type) [FloatOps F] : Type := Vec F S1024x1 .f32 × Vec F S1024x1 .f32 × Vec F S1024x1 .f32 × Vec F S1024x1 .f32

/-- The scratch columns after a point of `b = 0`: this tile's four columns. -/
def colsReset (i : grid0.Coords) (x0 x1 : Vec F S1024x128 .f32) (l0 l1 : Vec F S1024 .i32) : Cols F :=
  (k0_pay3 (k0_pay17 i x0 x1 l0 l1), k0_pay4 (k0_pay18 x0 x1 l0 l1),
   k0_pay5 (k0_pay15 i l0 l1) (Scalar.ofBits .f32 0x00000000#32) (k0_pay19 (F := F)), k0_pay6 (F := F) (k0_pay16 l0 l1))

/-- The scratch columns after a point of `b > 0`: this tile's columns joined into what the point before left. -/
def colsJoin (i : grid0.Coords) (x0 x1 : Vec F S1024x128 .f32) (l0 l1 : Vec F S1024 .i32) (s : Cols F) : Cols F :=
  (k0_pay7 (k0_pay17 i x0 x1 l0 l1) s.1, k0_pay8 (k0_pay18 x0 x1 l0 l1) s.2.1,
   k0_pay9 (k0_pay15 i l0 l1) (Scalar.ofBits .f32 0x00000000#32) (k0_pay19 (F := F)) s.2.2.1, k0_pay10 (k0_pay16 l0 l1) s.2.2.2)

/-- THE ACCUMULATION: the four scratch columns after the body at point `n`. -/
def colsAt (c : Dev nD) : (n : ℕ) → n < cfg0.N → Cols F
  | 0, hn => colsReset (grid0.coords ⟨0, hn⟩) (iblk m c 0 ⟨0, hn⟩) (iblk m c 1 ⟨0, hn⟩) (iblk m c 2 ⟨0, hn⟩) (iblk m c 3 ⟨0, hn⟩)
  | n + 1, hn =>
    if (n + 1) % 4 = 0 then
      colsReset (grid0.coords ⟨n + 1, hn⟩) (iblk m c 0 ⟨n + 1, hn⟩) (iblk m c 1 ⟨n + 1, hn⟩) (iblk m c 2 ⟨n + 1, hn⟩) (iblk m c 3 ⟨n + 1, hn⟩)
    else
      colsJoin (grid0.coords ⟨n + 1, hn⟩) (iblk m c 0 ⟨n + 1, hn⟩) (iblk m c 1 ⟨n + 1, hn⟩) (iblk m c 2 ⟨n + 1, hn⟩) (iblk m c 3 ⟨n + 1, hn⟩)
        (colsAt c n (Nat.lt_of_succ_lt hn))

theorem colsAt_reset (c : Dev nD) (t : Fin cfg0.N) (h : t.val % 4 = 0) :
    colsAt m c t.val t.isLt = colsReset (grid0.coords t) (iblk m c 0 t) (iblk m c 1 t) (iblk m c 2 t) (iblk m c 3 t) := by
  obtain ⟨n, hn⟩ := t
  cases n with
  | zero => rfl
  | succ n => exact (if_pos h).trans rfl

theorem colsAt_join (c : Dev nD) (t : Fin cfg0.N) (h : ¬ t.val % 4 = 0) :
    colsAt m c t.val t.isLt = colsJoin (grid0.coords t) (iblk m c 0 t) (iblk m c 1 t) (iblk m c 2 t) (iblk m c 3 t)
      (colsAt m c (t.val - 1) (Nat.lt_of_le_of_lt (Nat.sub_le _ _) t.isLt)) := by
  obtain ⟨n, hn⟩ := t
  cases n with
  | zero => exact absurd (Nat.zero_mod _) h
  | succ n => exact (if_neg h).trans rfl

/-- What the body stores into the first output's block from the scratch columns: the row losses. -/
def outLoss (s : Cols F) : Vec F S1024x1 .f32 := k0_pay12 s.1 s.2.1 s.2.2.1 s.2.2.2
/-- What it stores into the second output's block: the row indicators. -/
def outValid (s : Cols F) : Vec F S1024x1 .f32 := k0_pay11 s.2.2.1 s.2.2.2

/-! ## The region's invariant -/

/-- Before the first point the four scratch columns hold anything; after point `n` they hold `colsAt … n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) sc0 fullShare (colsAt m c n hn).1 ∗ owns (c : Thread nD τ) sc1 fullShare (colsAt m c n hn).2.1
      ∗ owns (c : Thread nD τ) sc2 fullShare (colsAt m c n hn).2.2.1 ∗ owns (c : Thread nD τ) sc3 fullShare (colsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) sc0 fullShare (colsAt m c n hn).1 ∗ owns (c : Thread nD τ) sc1 fullShare (colsAt m c n hn).2.1
      ∗ owns (c : Thread nD τ) sc2 fullShare (colsAt m c n hn).2.2.1 ∗ owns (c : Thread nD τ) sc3 fullShare (colsAt m c n hn).2.2.2) := rfl

theorem PhiS_pos (c : Dev nD) (n : ℕ) (h : n ≤ cfg0.N) (hz : n ≠ 0) :
    PhiS m c n h = iprop(owns (c : Thread nD τ) sc0 fullShare (colsAt m c (n - 1) (by omega)).1 ∗ owns (c : Thread nD τ) sc1 fullShare (colsAt m c (n - 1) (by omega)).2.1
      ∗ owns (c : Thread nD τ) sc2 fullShare (colsAt m c (n - 1) (by omega)).2.2.1 ∗ owns (c : Thread nD τ) sc3 fullShare (colsAt m c (n - 1) (by omega)).2.2.2) := by
  cases n with
  | zero => exact absurd rfl hz
  | succ n => rfl

/-- The scoped rest as the four scratch memrefs, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) := by
  rw [scopedRest0_eq]; simp only [sc0, sc1, sc2, sc3, owns_whole]; try rfl

/-! ## The proof data -/

/-- The arrays at the region-entry contents; after the body each input's buffer at its block, the outputs' at the
    row losses and the row indicators of the scratch columns; the two windows on the normalised matrix and the two
    on the labels each hold their array at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLoss (colsAt m c t.val t.isLt)
    | ⟨5, _⟩ => outValid (colsAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outLoss (colsAt m c t.val t.isLt) := by dsimp only [dats]
theorem after5 (c : Dev nD) (t : Fin cfg0.N) : (dats m 0 c).after 5 t = outValid (colsAt m c t.val t.isLt) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.FrameK.RunA.lean ====
import proofs.«134814_j36069135351986_1_alg».proof.Proof.FrameK.Data

/-! At a point of `b = 0` the body resets the four scratch columns to this tile's columns and leaves the output blocks as it found them. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point of `b = 0` the body resets the four scratch columns to this tile's columns and leaves the output blocks as it found them. On whole staging and scratch memrefs: the inputs' at their blocks, everything the body
    does not store into handed back as found, each buffer it stores into at the stored column. -/
theorem runA (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : cond1 i) (hc2 : ¬cond2 i) (hc3 : ¬cond3 i)
    (x0 x1 : Vec F S1024x128 .f32) (l0 l1 : Vec F S1024 .i32) (o0 o1 s0 s1 s2 s3 : Vec F S1024x1 .f32)
    (E : Set ℕ) (K : PUnit → sProp 𝕄) :
    iprop(owns (c : Thread nD τ) arg2 fullShare x0
        ∗ owns (c : Thread nD τ) arg3 fullShare x1
        ∗ owns (c : Thread nD τ) arg4 fullShare l0
        ∗ owns (c : Thread nD τ) arg5 fullShare l1
        ∗ owns (c : Thread nD τ) arg6 fullShare o0
        ∗ owns (c : Thread nD τ) arg7 fullShare o1
        ∗ owns (c : Thread nD τ) arg8 fullShare s0
        ∗ owns (c : Thread nD τ) arg9 fullShare s1
        ∗ owns (c : Thread nD τ) arg10 fullShare s2
        ∗ owns (c : Thread nD τ) arg11 fullShare s3
        ∗ (iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare o0
            ∗ owns (c : Thread nD τ) arg7 fullShare o1
            ∗ owns (c : Thread nD τ) arg8 fullShare (k0_pay3 (k0_pay17 i x0 x1 l0 l1))
            ∗ owns (c : Thread nD τ) arg9 fullShare (k0_pay4 (k0_pay18 x0 x1 l0 l1))
            ∗ owns (c : Thread nD τ) arg10 fullShare (k0_pay5 (k0_pay15 i l0 l1) (Scalar.ofBits .f32 0x00000000#32) (k0_pay19 (F := F)))
            ∗ owns (c : Thread nD τ) arg11 fullShare (k0_pay6 (F := F) (k0_pay16 l0 l1))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact hc1 | exact hc2 | exact hc3)
  sl_step
  iapply Hk
  have hz2 : (![0, 0] : Fin 2 → Nat) = fun _ => 0 := by funext a; fin_cases a <;> rfl
  have hz1 : (![0] : Fin 1 → Nat) = fun _ => 0 := by funext a; fin_cases a; rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y
  isplitl [H9]
  · iexists _; isplitr
    swap; · iexact H9
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y
  isplitl [H10]
  · iexists _; isplitr
    swap; · iexact H10
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y
  · iexists _; isplitr
    swap; · iexact H11
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y

end Cert.Kernel.Hand

end
-- ==== Proof.FrameK.RunB.lean ====
import proofs.«134814_j36069135351986_1_alg».proof.Proof.FrameK.Data

/-! At a point of `b = 1` or `b = 2` the body joins this tile's columns into the four scratch columns (max, min, max, max) and leaves the output blocks as it found them. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point of `b = 1` or `b = 2` the body joins this tile's columns into the four scratch columns (max, min, max, max) and leaves the output blocks as it found them. On whole staging and scratch memrefs: the inputs' at their blocks, everything the body
    does not store into handed back as found, each buffer it stores into at the stored column. -/
theorem runB (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : ¬cond1 i) (hc2 : cond2 i) (hc3 : ¬cond3 i)
    (x0 x1 : Vec F S1024x128 .f32) (l0 l1 : Vec F S1024 .i32) (o0 o1 s0 s1 s2 s3 : Vec F S1024x1 .f32)
    (E : Set ℕ) (K : PUnit → sProp 𝕄) :
    iprop(owns (c : Thread nD τ) arg2 fullShare x0
        ∗ owns (c : Thread nD τ) arg3 fullShare x1
        ∗ owns (c : Thread nD τ) arg4 fullShare l0
        ∗ owns (c : Thread nD τ) arg5 fullShare l1
        ∗ owns (c : Thread nD τ) arg6 fullShare o0
        ∗ owns (c : Thread nD τ) arg7 fullShare o1
        ∗ owns (c : Thread nD τ) arg8 fullShare s0
        ∗ owns (c : Thread nD τ) arg9 fullShare s1
        ∗ owns (c : Thread nD τ) arg10 fullShare s2
        ∗ owns (c : Thread nD τ) arg11 fullShare s3
        ∗ (iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare o0
            ∗ owns (c : Thread nD τ) arg7 fullShare o1
            ∗ owns (c : Thread nD τ) arg8 fullShare (k0_pay7 (k0_pay17 i x0 x1 l0 l1) s0)
            ∗ owns (c : Thread nD τ) arg9 fullShare (k0_pay8 (k0_pay18 x0 x1 l0 l1) s1)
            ∗ owns (c : Thread nD τ) arg10 fullShare (k0_pay9 (k0_pay15 i l0 l1) (Scalar.ofBits .f32 0x00000000#32) (k0_pay19 (F := F)) s2)
            ∗ owns (c : Thread nD τ) arg11 fullShare (k0_pay10 (k0_pay16 l0 l1) s3)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact hc1 | exact hc2 | exact hc3)
  sl_step
  iapply Hk
  have hz2 : (![0, 0] : Fin 2 → Nat) = fun _ => 0 := by funext a; fin_cases a <;> rfl
  have hz1 : (![0] : Fin 1 → Nat) = fun _ => 0 := by funext a; fin_cases a; rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y
  isplitl [H9]
  · iexists _; isplitr
    swap; · iexact H9
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y
  isplitl [H10]
  · iexists _; isplitr
    swap; · iexact H10
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y
  · iexists _; isplitr
    swap; · iexact H11
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.Kernel.Facts₀.inb_S1024x1_S1024x1_0_0 y

end Cert.Kernel.Hand

end
-- ==== Proof.FrameK.RunCD.lean ====
import proofs.«134814_j36069135351986_1_alg».proof.Proof.FrameK.Data

/-! At a point of `b = 3` the body joins this tile's columns into the four scratch columns, then stores the row losses and the row indicators, computed from the joined columns, into the two output blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a point of `b = 3`, with what its stores leave in each buffer it stores into as a list of
    written pieces (last first): on whole staging and scratch memrefs, the inputs' at their blocks, the two output
    blocks at anything, the four scratch columns at what the point before left, it runs to the continuation holding
    the inputs' as they were and each of the six buffers it stored into with its pieces written. -/
noncomputable def kernelRunC (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : ¬cond1 i) (hc2 : cond2 i) (hc3 : cond3 i)
    (x0 x1 : Vec F S1024x128 .f32) (l0 l1 : Vec F S1024 .i32) (s0 s1 s2 s3 : Vec F S1024x1 .f32) :
    Σ' (L6 L7 L8 L9 L10 : List (View.Piece (Elt F) S1024x1 .f32)), { L11 : List (View.Piece (Elt F) S1024x1 .f32) //
      ∀ (o0 o1 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare o0
            ∗ owns (c : Thread nD τ) arg7 fullShare o1
            ∗ owns (c : Thread nD τ) arg8 fullShare s0
            ∗ owns (c : Thread nD τ) arg9 fullShare s1
            ∗ owns (c : Thread nD τ) arg10 fullShare s2
            ∗ owns (c : Thread nD τ) arg11 fullShare s3
            ∗ (iprop(owns (c : Thread nD τ) arg2 fullShare x0
                ∗ owns (c : Thread nD τ) arg3 fullShare x1
                ∗ owns (c : Thread nD τ) arg4 fullShare l0
                ∗ owns (c : Thread nD τ) arg5 fullShare l1
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, ?_, ?_, fun o0 o1 E K => ?run⟩
  case run =>
    simp only [cc0__triplet_kernel_eq_skeleton]; unfold cc0__triplet_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg10.eq_unread hf10; obtain rfl := harg11.eq_unread hf11
    sl_exec (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.Kernel.Hand

end
-- ==== Proof.FrameK.RunC.lean ====
import proofs.«134814_j36069135351986_1_alg».proof.Proof.FrameK.RunCD

/-! At a point of `b = 3` the body joins this tile's columns into the four scratch columns, then stores the row losses and the row indicators, computed from the joined columns, into the two output blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point of `b = 3` the body joins this tile's columns into the four scratch columns, then stores the row losses and the row indicators, computed from the joined columns, into the two output blocks. Every buffer read back through its single covering piece. -/
theorem runC (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : ¬cond1 i) (hc2 : cond2 i) (hc3 : cond3 i)
    (x0 x1 : Vec F S1024x128 .f32) (l0 l1 : Vec F S1024 .i32) (o0 o1 s0 s1 s2 s3 : Vec F S1024x1 .f32)
    (E : Set ℕ) (K : PUnit → sProp 𝕄) :
    iprop(owns (c : Thread nD τ) arg2 fullShare x0
        ∗ owns (c : Thread nD τ) arg3 fullShare x1
        ∗ owns (c : Thread nD τ) arg4 fullShare l0
        ∗ owns (c : Thread nD τ) arg5 fullShare l1
        ∗ owns (c : Thread nD τ) arg6 fullShare o0
        ∗ owns (c : Thread nD τ) arg7 fullShare o1
        ∗ owns (c : Thread nD τ) arg8 fullShare s0
        ∗ owns (c : Thread nD τ) arg9 fullShare s1
        ∗ owns (c : Thread nD τ) arg10 fullShare s2
        ∗ owns (c : Thread nD τ) arg11 fullShare s3
        ∗ (iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare (k0_pay12 (k0_pay7 (k0_pay17 i x0 x1 l0 l1) s0) (k0_pay8 (k0_pay18 x0 x1 l0 l1) s1) (k0_pay9 (k0_pay15 i l0 l1) (Scalar.ofBits .f32 0x00000000#32) (k0_pay19 (F := F)) s2) (k0_pay10 (k0_pay16 l0 l1) s3))
            ∗ owns (c : Thread nD τ) arg7 fullShare (k0_pay11 (k0_pay9 (k0_pay15 i l0 l1) (Scalar.ofBits .f32 0x00000000#32) (k0_pay19 (F := F)) s2) (k0_pay10 (k0_pay16 l0 l1) s3))
            ∗ owns (c : Thread nD τ) arg8 fullShare (k0_pay7 (k0_pay17 i x0 x1 l0 l1) s0)
            ∗ owns (c : Thread nD τ) arg9 fullShare (k0_pay8 (k0_pay18 x0 x1 l0 l1) s1)
            ∗ owns (c : Thread nD τ) arg10 fullShare (k0_pay9 (k0_pay15 i l0 l1) (Scalar.ofBits .f32 0x00000000#32) (k0_pay19 (F := F)) s2)
            ∗ owns (c : Thread nD τ) arg11 fullShare (k0_pay10 (k0_pay16 l0 l1) s3)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  have hz1 : (![0] : Fin 1 → Nat) = fun _ => 0 := by funext a; fin_cases a; rfl
  iintro ⟨H2, H3, H4, H5, H6, H7, H8, H9, H10, H11, Hk⟩
  iapply ((kernelRunC c i arg2 harg2 arg3 harg3 arg4 harg4 arg5 harg5 arg6 harg6 arg7 harg7 arg8 harg8 arg9 harg9 arg10 harg10 arg11 harg11 hc1 hc2 hc3 x0 x1 l0 l1 s0 s1 s2 s3).2.2.2.2.2.2 o0 o1 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, ⟨%f6, H6⟩, ⟨%f7, H7⟩, ⟨%f8, H8⟩, ⟨%f9, H9⟩, ⟨%f10, H10⟩, ⟨%f11, H11⟩⟩
  iapply Hk
  isplitl [H2]; · iexact H2
  isplitl [H3]; · iexact H3
  isplitl [H4]; · iexact H4
  isplitl [H5]; · iexact H5
  unfold owns
  isplitl [H6]
  · iexists _; isplitr
    swap; · iexact H6
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.Kernel.Facts₀.inb_S1024x1_S1024x1_0_0 y
  isplitl [H7]
  · iexists _; isplitr
    swap; · iexact H7
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.Kernel.Facts₀.inb_S1024x1_S1024x1_0_0 y
  isplitl [H8]
  · iexists _; isplitr
    swap; · iexact H8
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.Kernel.Facts₀.inb_S1024x1_S1024x1_0_0 y
  isplitl [H9]
  · iexists _; isplitr
    swap; · iexact H9
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.Kernel.Facts₀.inb_S1024x1_S1024x1_0_0 y
  isplitl [H10]
  · iexists _; isplitr
    swap; · iexact H10
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.Kernel.Facts₀.inb_S1024x1_S1024x1_0_0 y
  · iexists _; isplitr
    swap; · iexact H11
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.Kernel.Facts₀.inb_S1024x1_S1024x1_0_0 y

end Cert.Kernel.Hand

end
-- ==== Proof.FrameK.Body.lean ====
import proofs.«134814_j36069135351986_1_alg».proof.Proof.FrameK.RunA
import proofs.«134814_j36069135351986_1_alg».proof.Proof.FrameK.RunB
import proofs.«134814_j36069135351986_1_alg».proof.Proof.FrameK.RunC

/-!
# The body at every point of the grid

The column run `b = t % 4` of a point decides which of the three runs of the body applies; the region's
invariant hands the body the four scratch columns at what the point before left (at anything before the first
point) and takes them back at this point's value; an output block is handed back untouched wherever the body
stores nothing into it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 16 := lt_of_lt_of_eq t.isLt (show cfg0.N = 16 from N_0)
  by_cases h0 : t.val % 4 = 0
  · have c1 : cond1 (grid0.coords t) := (hcond1 t).mpr h0
    have c2 : ¬cond2 (grid0.coords t) := fun h => (hcond2 t).mp h h0
    have c3 : ¬cond3 (grid0.coords t) := fun h => by have := (hcond3 t).mp h; omega
    rw [Dat.leavesExact_idle (dats m 0 c) 4 t (idle4 t c3) (noFlush4 t c3), Dat.leavesExact_idle (dats m 0 c) 5 t (idle5 t c3) (noFlush5 t c3)]
    rw [colsAt_reset m c t h0]
    unfold colsReset; (try dsimp only)
    by_cases hz : t.val = 0
    · rw [PhiS_castSucc m c t, PhiS_zero m c _ _ hz, scopedRest_eq]
      iintro ⟨⟨⟨%e0, HS0⟩, ⟨%e1, HS1⟩, ⟨%e2, HS2⟩, ⟨%e3, HS3⟩⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have c1 : ¬cond1 (grid0.coords t) := fun h => h0 ((hcond1 t).mp h)
    have c2 : cond2 (grid0.coords t) := (hcond2 t).mpr h0
    by_cases h3 : t.val % 4 = 3
    · have c3 : cond3 (grid0.coords t) := (hcond3 t).mpr h3
      rw [show (dats m 0 c).leavesExact 4 t = owns (c : Thread nD τ) (ms4 t) fullShare ((dats m 0 c).after 4 t) from by
        unfold Dat.leavesExact; rw [live4 t c3], after4]
      rw [show (dats m 0 c).leavesExact 5 t = owns (c : Thread nD τ) (ms5 t) fullShare ((dats m 0 c).after 5 t) from by
        unfold Dat.leavesExact; rw [live5 t c3], after5]
      rw [colsAt_join m c t h0]
      unfold outLoss outValid colsJoin; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexact H5
    · have c3 : ¬cond3 (grid0.coords t) := fun h => h3 ((hcond3 t).mp h)
      rw [Dat.leavesExact_idle (dats m 0 c) 4 t (idle4 t c3) (noFlush4 t c3), Dat.leavesExact_idle (dats m 0 c) 5 t (idle5 t c3) (noFlush5 t c3)]
      rw [colsAt_join m c t h0]
      unfold colsJoin; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.Exit.lean ====
import proofs.«134814_j36069135351986_1_alg».proof.Proof.FrameK.Data

/-!
# Around the region: the host stretches, the arrays' shares, and the stretch after the region

The normalised matrix is handed to the kernel through TWO windows (the row run and the column run), and so are the
labels: four buffers stand behind six windows. Each of the two shared buffers is held by its two windows at half
the share each. The stretch after the region (two sums, a maximum, a quotient) reads the two result arrays; it is
run with every unscoped buffer held whole, the halves joined before it and parted after it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq bigSep_sdiff_split)

variable (m : (ℓ : Loc nD τ sig) → Buf (Elt F) ℓ) (ρ : Dev nD → PrngReg)

/-! ## @main around the region -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the row norms, the division, the region, then the two sums and their quotient: it reduces to the
    region continued by the last stretch, at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨fresh0, fresh0_1⟩) main_chain

/-- The last stretch touches unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- and writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-! ## The arrays: four buffers behind six windows -/

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl

/-- The four distinct buffers behind the windows' arrays, each whole at the full share at contents `Vx`, ARE the
    six windows' arrays at their shares: the normalised matrix split in two halves between the row-run and the
    column-run window, the labels likewise, the two results whole. -/
theorem arrays_iff (c : Dev nD) (Vx : (b : Ref sig .tc) → Buf (Elt F) ((c.tc : Thread nD τ).loc b))
    (G : (w : Fin cfg0.W) → Buf (Elt F) ((cfg0.win w).arr.view.loc (c.tc : Thread nD τ)))
    (hG : ∀ w, G w = Vx (Pipeline.arrRef spec0 w)) :
    (Pipeline.arrBufs spec0 c Vx : sProp 𝕄) ⊣⊢ (dats m 0 c).arrays G := by
  have himg : Finset.univ.image (Pipeline.arrRef spec0) = ([main_v4, main_arg1, main_v5_0, main_v5_1] : List (Ref sig .tc)).toFinset := by decide
  unfold Pipeline.arrBufs Dat.arrays
  rw [bigSep_W0, bigSep_eq_bigSepL_of_eq _ himg (by decide)]
  show iprop((((c.tc : Thread nD τ).loc main_v4) ↦{fullShare} Vx main_v4) ∗ (((c.tc : Thread nD τ).loc main_arg1) ↦{fullShare} Vx main_arg1)
      ∗ (((c.tc : Thread nD τ).loc main_v5_0) ↦{fullShare} Vx main_v5_0) ∗ (((c.tc : Thread nD τ).loc main_v5_1) ↦{fullShare} Vx main_v5_1)) ⊣⊢ _
  rw [hG 0, hG 1, hG 2, hG 3, hG 4, hG 5, share0, share1, share2, share3, share4, share5,
    (arr_whole0 0).set_eq_univ, (arr_whole0 2).set_eq_univ, (arr_whole0 4).set_eq_univ, (arr_whole0 5).set_eq_univ]
  refine ⟨?_, ?_⟩
  · iintro ⟨Ha, Hb, Hc, Hd⟩
    ihave Ha := (pointsTo_share (PosShare.mem_left_op_right fullShare)).1 $$ Ha
    icases Ha with ⟨Ha1, Ha2⟩
    ihave Hb := (pointsTo_share (PosShare.mem_left_op_right fullShare)).1 $$ Hb
    icases Hb with ⟨Hb1, Hb2⟩
    isplitl [Ha1]; · iexact Ha1
    isplitl [Ha2]; · iexact Ha2
    isplitl [Hb1]; · iexact Hb1
    isplitl [Hb2]; · iexact Hb2
    isplitl [Hc]; · iexact Hc
    iexact Hd
  · iintro ⟨Ha1, Ha2, Hb1, Hb2, Hc, Hd⟩
    ihave Ha := (pointsTo_share (PosShare.mem_left_op_right fullShare)).2 $$ [Ha1 Ha2]
    · isplitl [Ha1]; · iexact Ha1
      iexact Ha2
    ihave Hb := (pointsTo_share (PosShare.mem_left_op_right fullShare)).2 $$ [Hb1 Hb2]
    · isplitl [Hb1]; · iexact Hb1
      iexact Hb2
    isplitl [Ha]; · iexact Ha
    isplitl [Hb]; · iexact Hb
    isplitl [Hc]; · iexact Hc
    iexact Hd

/-! ## What the buffers hold when the region is left -/

/-- The contents with the windows' arrays at `A`, read at a window's array, are that window's: though two windows
    may name one array, every window naming it holds the same contents there (`hA`). -/
theorem withArrays_at (c : Dev nD) (Vv : Valuation τ sig (Elt F))
    (A : (w : Fin cfg0.W) → Buf (Elt F) ((spec0 w).arr.view.loc (c.tc : Thread nD τ))) (w : Fin cfg0.W)
    (hA : ∀ w' (e : Proc.devRef .tc (Pipeline.arrRef spec0 w') = Proc.devRef (τ := τ) .tc (Pipeline.arrRef spec0 w)),
      cast (congrArg (fun b' : DevRef τ sig => b'.ty.Contents (Elt F)) e) (A w') = A w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  exact hA _ h.choose_spec

/-! ## The last stretch, run from the region's exit -/

open Classical in
/-- The buffers when the region is left: the two result arrays at what the write-backs made of them, every other
    buffer as the region found it (no write-back touches the matrix or the labels). -/
def Wexit (c : Dev nD) : Valuation τ sig (Elt F) :=
  Function.update (Function.update (V0 m c) (Proc.devRef .tc main_v5_0) ((dats m 0 c).arrAt 4 cfg0.N))
    (Proc.devRef .tc main_v5_1) ((dats m 0 c).arrAt 5 cfg0.N)

theorem Wexit_v5_1 (c : Dev nD) : Wexit m c (Proc.devRef .tc main_v5_1) = (dats m 0 c).arrAt 5 cfg0.N := by
  unfold Wexit; exact Function.update_self _ _ _

theorem Wexit_v5_0 (c : Dev nD) : Wexit m c (Proc.devRef .tc main_v5_0) = (dats m 0 c).arrAt 4 cfg0.N := by
  unfold Wexit
  rw [Function.update_of_ne (StableHlo.devRef_ne_of_ne (by decide))]
  exact Function.update_self _ _ _

theorem Wexit_other (c : Dev nD) (b : Ref sig .tc) (h4 : b ≠ main_v5_0) (h5 : b ≠ main_v5_1) :
    Wexit m c (Proc.devRef .tc b) = V m c b := by
  unfold Wexit
  rw [Function.update_of_ne (StableHlo.devRef_ne_of_ne h5), Function.update_of_ne (StableHlo.devRef_ne_of_ne h4)]

/-- Every window's array at the region's exit is its buffer's contents there. -/
theorem arrAt_exit (c : Dev nD) (w : Fin cfg0.W) :
    (dats m 0 c).arrAt w cfg0.N = Wexit m c (Proc.devRef .tc (Pipeline.arrRef spec0 w)) := by
  have hin : ∀ v : Fin cfg0.W, (cfg0.win v).isOut = false → (dats m 0 c).arrAt v cfg0.N = V m c (Pipeline.arrRef spec0 v) :=
    fun v hv => ((dats m 0 c).arrAt_in v hv _).trans (A_eq m c v)
  fin_cases w
  · exact (hin 0 rfl).trans (Wexit_other m c _ (by decide) (by decide)).symm
  · exact (hin 1 rfl).trans (Wexit_other m c _ (by decide) (by decide)).symm
  · exact (hin 2 rfl).trans (Wexit_other m c _ (by decide) (by decide)).symm
  · exact (hin 3 rfl).trans (Wexit_other m c _ (by decide) (by decide)).symm
  · exact (Wexit_v5_0 m c).symm
  · exact (Wexit_v5_1 m c).symm

/-- The buffers after the last stretch. -/
abbrev Wend (c : Dev nD) : Valuation τ sig (Elt F) := StableHlo.after (List.flatten [hostOps1]) (Wexit m c)

/-- The last stretch writes no window's array. -/
theorem Wend_arr (c : Dev nD) (w : Fin cfg0.W) :
    Wend m c (Proc.devRef .tc (Pipeline.arrRef spec0 w)) = Wexit m c (Proc.devRef .tc (Pipeline.arrRef spec0 w)) := by
  unfold Wend
  rw [StableHlo.after_of_forall_not_mem _ _ fun op hop => ?_]
  obtain ⟨ops, hops, hop⟩ := List.mem_flatten.mp hop
  exact sfx_keeps ops hops op hop w

theorem arr_unscoped : ∀ w, (Pipeline.arrRef spec0 w).isScoped = false := by decide

set_option backward.isDefEq.respectTransparency.types false in
/-- From the region's exit — the windows' arrays at their shares, the bypassing buffers as the region found them — the
    two sums, the maximum and the quotient run within the unscoped buffers held whole (the two halves of the matrix
    and of the labels put together for the run and parted again after it), and hand back the same at the contents
    after them. -/
theorem tail (c : Dev nD) (Q' : PUnit → sProp 𝕄) :
    iprop((iprop((dats m 0 c).arrays ((dats m 0 c).arrAt · cfg0.N)
            ∗ Pipeline.unscopedRest (Ix := Unit) (Name := ℕ) (U := UR sig nD τ) (Lvl := ℕ) spec0 c (fun b => Wend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  classical
  have hrest : (Pipeline.unscopedRest (Ix := Unit) (Name := ℕ) (U := UR sig nD τ) (Lvl := ℕ) spec0 c (V m c) : sProp 𝕄)
      = Pipeline.unscopedRest spec0 c (fun b => Wexit m c (Proc.devRef .tc b)) := by
    unfold Pipeline.unscopedRest
    exact bigSep_congr fun b hb => by
      have hb' := (Finset.mem_sdiff.mp hb).2
      beta_reduce
      rw [Wexit_other m c b (fun h => hb' (h ▸ Finset.mem_image.mpr ⟨4, Finset.mem_univ _, rfl⟩))
        (fun h => hb' (h ▸ Finset.mem_image.mpr ⟨5, Finset.mem_univ _, rfl⟩))]
  have hheld : ∀ W : Valuation τ sig (Elt F),
      (StableHlo.held (c.tc : Thread nD τ) (Pipeline.ucRefs τ sig) W : sProp 𝕄)
        = iprop((Pipeline.arrBufs spec0 c (fun b => W (Proc.devRef .tc b)) : sProp 𝕄) ∗ Pipeline.unscopedRest spec0 c (fun b => W (Proc.devRef .tc b))) := fun W =>
    (Pipeline.unscopedBufs_held (Ix := Unit) (Name := ℕ) (U := UR sig nD τ) (Lvl := ℕ) c W).symm.trans
      (Pipeline.unscopedBufs_split₀ cfgs 0 arr_unscoped c (fun b => W (Proc.devRef .tc b)))
  rw [hrest, show Pipeline.chain [StableHlo.seq hostOps1] = Pipeline.chain (([hostOps1] : List (List (HloOp τ sig (Elt F)))).map StableHlo.seq ++ []) from rfl]
  iintro ⟨Hk, Hb, Harr, Hrest⟩
  ihave Hbufs := (arrays_iff m c (fun b => Wexit m c (Proc.devRef .tc b)) _ (arrAt_exit m c)).2 $$ Harr
  ihave Hheld := (Entails.of_eq (hheld (Wexit m c)).symm) $$ [Hbufs Hrest]
  · isplitl [Hbufs]; · iexact Hbufs
    iexact Hrest
  iapply (Pipeline.wp_seqs_then (fun q => Cfg.toPCfg (Val := Elt F) (cfgs q)) defs₀ Variants.none c (Pipeline.ucRefs τ sig) [] [hostOps1] sfx_sub sfx_fresh (Wexit m c)) $$ [Hb Hheld]
  · isplitl [Hb]; · iexact Hb
    iexact Hheld
  iintro ⟨Hb, Hheld⟩
  rw [Pipeline.chain_nil, wp_pure]
  imodintro
  iapply Hk
  ihave H2 := (Entails.of_eq (hheld (Wend m c))) $$ Hheld
  icases H2 with ⟨Hbufs, Hrest⟩
  isplitl [Hbufs]
  · iapply (arrays_iff m c (fun b => Wend m c (Proc.devRef .tc b)) _ (fun w => (arrAt_exit m c w).trans (Wend_arr m c w).symm)).1
    iexact Hbufs
  iexact Hrest

/-! ## The run's post -/

/-- What the run ends in: every window's array at what the write-backs made of it, every bypassing buffer at the
    contents after the last stretch. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = Wend m c (Proc.devRef .tc b)

end Cert.Kernel.Hand

end
-- ==== Proof.FrameK.Launch.lean ====
import proofs.«134814_j36069135351986_1_alg».proof.Proof.FrameK.Body
import proofs.«134814_j36069135351986_1_alg».proof.Proof.FrameK.Exit

/-! The whole run: the launch of the one region, whose input windows share arrays, continued by the last stretch. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- At the compiled mesh, for any float values, from any memory with zero counters: every weakly fair execution of
    @main on the TensorCores terminates, nothing faulting, every window's array ending at what the write-backs
    made of it and every bypassing buffer at the contents after the last stretch. -/
theorem run_main : θ_run defs (onTc (τ := τ) (main (F := F))) (s₀ m ρ) (RunPost m) := by
  classical
  exact Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := BI.Entails.refl _)
    (V := V m) (hmain := hmain m Variants.none)
    (hsplit := fun c => (arrays_iff m c (V m c) _ (fun w => A_eq m c w)).1)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Wend m c (Proc.devRef .tc b)))
    (hX := fun c => by
      rw [Pipeline.unscopedRestP_none]
      iintro H; isplitr
      · iempintro
      · iexact H)
    (hin := fun c => by
      rw [show (dats m 0 c).Φ 0 = Pipeline.scopedRest (Ix := Unit) (Name := ℕ) (U := UR sig nD τ) (Lvl := ℕ) (Val := Elt F) spec0 c from rfl]
      iintro ⟨-, -, H⟩; iexact H)
    (hout := fun c => by
      rw [show (dats m 0 c).Φ (Fin.last cfg0.N) = PhiS m c cfg0.N (le_refl _) from rfl,
        PhiS_pos m c _ _ (by rw [show cfg0.N = 16 from N_0]; decide), scopedRest_eq]
      iintro ⟨H0, H1, H2, H3⟩
      isplitr; · iempintro
      isplitl [H0]; · iexists _; iexact H0
      isplitl [H1]; · iexists _; iexact H1
      isplitl [H2]; · iexists _; iexact H2
      iexists _; iexact H3)
    (htail := fun c Q' => tail m c Q')
    (QY := fun c s => ∀ b ∈ Pipeline.restRefs sig spec0, s.mem ((c.tc : Thread nD τ).loc b) = Wend m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

end Cert.Kernel.Hand

end
-- ==== Proof.FrameKI.Data.lean ====
import proofs.«134814_j36069135351986_1_alg».proof.Proof.Gen.KernelIdeal.Launch
import proofs.«134814_j36069135351986_1_alg».proof.Proof.Gen.KernelIdeal.Skeleton
import proofs.«134814_j36069135351986_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The triplet kernel's pipeline: what every buffer holds, point by point

The grid has 16 points, `t = 4 a + b`: row run `a`, column run `b`. At every point the body computes, from the
two row-run blocks and the two label-run blocks, four columns of 1024 values (the tile's farthest positive, nearest
negative and the two indicators). At `b = 0` it stores them into its four scratch columns; at `b > 0` it joins them
into the scratch columns by max / min; at `b = 3` it also stores the row losses and the row indicators, computed
from the scratch columns, into the two output blocks, which the pipeline writes back there and nowhere else.
So the scratch columns after point `t` are a recursion on `t` that restarts at every `b = 0`, and the region's
invariant between points is the four scratch columns at that recursion's value.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: after the row norms and the division by them. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The three branches, decided by the column run -/

/-- `b = 0`: the scratch columns are reset. -/
abbrev cond1 (i : grid0.Coords) : Prop := (Scalar.cmpi .ne (Scalar.extui (Scalar.cmpi .eq (BitVec.ofNat 32 (i 1).val) 0#32)) 0#32) = 1#1
/-- `b > 0`: the scratch columns are joined into. -/
abbrev cond2 (i : grid0.Coords) : Prop := (Scalar.cmpi .ne (Scalar.extui (Scalar.cmpi .sgt (BitVec.ofNat 32 (i 1).val) 0#32)) 0#32) = 1#1
/-- `b = 3`: the outputs are stored. -/
abbrev cond3 (i : grid0.Coords) : Prop := k0_cond3 i = 1#1

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ ¬ t.val % 4 = 0 :=
  (by decide +kernel : ∀ t : Fin grid0.N, cond2 (grid0.coords t) ↔ ¬ t.val % 4 = 0)
theorem hcond3 : ∀ t : Fin cfg0.N, cond3 (grid0.coords t) ↔ t.val % 4 = 3 :=
  (by decide +kernel : ∀ t : Fin grid0.N, cond3 (grid0.coords t) ↔ t.val % 4 = 3)

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬cond3 (grid0.coords t) → cfg0.idle 4 (grid0.coords t) = true := by decide +kernel
theorem idle5 : ∀ t : Fin cfg0.N, ¬cond3 (grid0.coords t) → cfg0.idle 5 (grid0.coords t) = true := by decide +kernel
theorem live4 : ∀ t : Fin cfg0.N, cond3 (grid0.coords t) → cfg0.idle 4 (grid0.coords t) = false := by decide +kernel
theorem live5 : ∀ t : Fin cfg0.N, cond3 (grid0.coords t) → cfg0.idle 5 (grid0.coords t) = false := by decide +kernel
theorem noFlush4 : ∀ t : Fin cfg0.N, ¬cond3 (grid0.coords t) → (cfg0.win 4).flush t = false := by decide +kernel
theorem noFlush5 : ∀ t : Fin cfg0.N, ¬cond3 (grid0.coords t) → (cfg0.win 5).flush t = false := by decide +kernel

/-! ## The staging and scratch memrefs the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3

/-! ## The scratch columns after each point -/

/-- Four columns of 1024 values. -/
abbrev Cols (F : FTy → Type) [FloatOps F] : Type := Vec F S1024x1 .f32 × Vec F S1024x1 .f32 × Vec F S1024x1 .f32 × Vec F S1024x1 .f32

/-- The scratch columns after a point of `b = 0`: this tile's four columns. -/
def colsReset (i : grid0.Coords) (x0 x1 : Vec F S1024x128 .f32) (l0 l1 : Vec F S1024 .i32) : Cols F :=
  (k0_pay3 (k0_pay17 i x0 x1 l0 l1), k0_pay4 (k0_pay18 x0 x1 l0 l1),
   k0_pay5 (k0_pay15 i l0 l1) (Scalar.ofBits .f32 0x00000000#32) (k0_pay19 (F := F)), k0_pay6 (F := F) (k0_pay16 l0 l1))

/-- The scratch columns after a point of `b > 0`: this tile's columns joined into what the point before left. -/
def colsJoin (i : grid0.Coords) (x0 x1 : Vec F S1024x128 .f32) (l0 l1 : Vec F S1024 .i32) (s : Cols F) : Cols F :=
  (k0_pay7 (k0_pay17 i x0 x1 l0 l1) s.1, k0_pay8 (k0_pay18 x0 x1 l0 l1) s.2.1,
   k0_pay9 (k0_pay15 i l0 l1) (Scalar.ofBits .f32 0x00000000#32) (k0_pay19 (F := F)) s.2.2.1, k0_pay10 (k0_pay16 l0 l1) s.2.2.2)

/-- THE ACCUMULATION: the four scratch columns after the body at point `n`. -/
def colsAt (c : Dev nD) : (n : ℕ) → n < cfg0.N → Cols F
  | 0, hn => colsReset (grid0.coords ⟨0, hn⟩) (iblk m c 0 ⟨0, hn⟩) (iblk m c 1 ⟨0, hn⟩) (iblk m c 2 ⟨0, hn⟩) (iblk m c 3 ⟨0, hn⟩)
  | n + 1, hn =>
    if (n + 1) % 4 = 0 then
      colsReset (grid0.coords ⟨n + 1, hn⟩) (iblk m c 0 ⟨n + 1, hn⟩) (iblk m c 1 ⟨n + 1, hn⟩) (iblk m c 2 ⟨n + 1, hn⟩) (iblk m c 3 ⟨n + 1, hn⟩)
    else
      colsJoin (grid0.coords ⟨n + 1, hn⟩) (iblk m c 0 ⟨n + 1, hn⟩) (iblk m c 1 ⟨n + 1, hn⟩) (iblk m c 2 ⟨n + 1, hn⟩) (iblk m c 3 ⟨n + 1, hn⟩)
        (colsAt c n (Nat.lt_of_succ_lt hn))

theorem colsAt_reset (c : Dev nD) (t : Fin cfg0.N) (h : t.val % 4 = 0) :
    colsAt m c t.val t.isLt = colsReset (grid0.coords t) (iblk m c 0 t) (iblk m c 1 t) (iblk m c 2 t) (iblk m c 3 t) := by
  obtain ⟨n, hn⟩ := t
  cases n with
  | zero => rfl
  | succ n => exact (if_pos h).trans rfl

theorem colsAt_join (c : Dev nD) (t : Fin cfg0.N) (h : ¬ t.val % 4 = 0) :
    colsAt m c t.val t.isLt = colsJoin (grid0.coords t) (iblk m c 0 t) (iblk m c 1 t) (iblk m c 2 t) (iblk m c 3 t)
      (colsAt m c (t.val - 1) (Nat.lt_of_le_of_lt (Nat.sub_le _ _) t.isLt)) := by
  obtain ⟨n, hn⟩ := t
  cases n with
  | zero => exact absurd (Nat.zero_mod _) h
  | succ n => exact (if_neg h).trans rfl

/-- What the body stores into the first output's block from the scratch columns: the row losses. -/
def outLoss (s : Cols F) : Vec F S1024x1 .f32 := k0_pay12 s.1 s.2.1 s.2.2.1 s.2.2.2
/-- What it stores into the second output's block: the row indicators. -/
def outValid (s : Cols F) : Vec F S1024x1 .f32 := k0_pay11 s.2.2.1 s.2.2.2

/-! ## The region's invariant -/

/-- Before the first point the four scratch columns hold anything; after point `n` they hold `colsAt … n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) sc0 fullShare (colsAt m c n hn).1 ∗ owns (c : Thread nD τ) sc1 fullShare (colsAt m c n hn).2.1
      ∗ owns (c : Thread nD τ) sc2 fullShare (colsAt m c n hn).2.2.1 ∗ owns (c : Thread nD τ) sc3 fullShare (colsAt m c n hn).2.2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) sc0 fullShare (colsAt m c n hn).1 ∗ owns (c : Thread nD τ) sc1 fullShare (colsAt m c n hn).2.1
      ∗ owns (c : Thread nD τ) sc2 fullShare (colsAt m c n hn).2.2.1 ∗ owns (c : Thread nD τ) sc3 fullShare (colsAt m c n hn).2.2.2) := rfl

theorem PhiS_pos (c : Dev nD) (n : ℕ) (h : n ≤ cfg0.N) (hz : n ≠ 0) :
    PhiS m c n h = iprop(owns (c : Thread nD τ) sc0 fullShare (colsAt m c (n - 1) (by omega)).1 ∗ owns (c : Thread nD τ) sc1 fullShare (colsAt m c (n - 1) (by omega)).2.1
      ∗ owns (c : Thread nD τ) sc2 fullShare (colsAt m c (n - 1) (by omega)).2.2.1 ∗ owns (c : Thread nD τ) sc3 fullShare (colsAt m c (n - 1) (by omega)).2.2.2) := by
  cases n with
  | zero => exact absurd rfl hz
  | succ n => rfl

/-- The scoped rest as the four scratch memrefs, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) := by
  rw [scopedRest0_eq]; simp only [sc0, sc1, sc2, sc3, owns_whole]; try rfl

/-! ## The proof data -/

/-- The arrays at the region-entry contents; after the body each input's buffer at its block, the outputs' at the
    row losses and the row indicators of the scratch columns; the two windows on the normalised matrix and the two
    on the labels each hold their array at half the share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLoss (colsAt m c t.val t.isLt)
    | ⟨5, _⟩ => outValid (colsAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outLoss (colsAt m c t.val t.isLt) := by dsimp only [dats]
theorem after5 (c : Dev nD) (t : Fin cfg0.N) : (dats m 0 c).after 5 t = outValid (colsAt m c t.val t.isLt) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.FrameKI.RunA.lean ====
import proofs.«134814_j36069135351986_1_alg».proof.Proof.FrameKI.Data

/-! At a point of `b = 0` the body resets the four scratch columns to this tile's columns and leaves the output blocks as it found them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point of `b = 0` the body resets the four scratch columns to this tile's columns and leaves the output blocks as it found them. On whole staging and scratch memrefs: the inputs' at their blocks, everything the body
    does not store into handed back as found, each buffer it stores into at the stored column. -/
theorem runA (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : cond1 i) (hc2 : ¬cond2 i) (hc3 : ¬cond3 i)
    (x0 x1 : Vec F S1024x128 .f32) (l0 l1 : Vec F S1024 .i32) (o0 o1 s0 s1 s2 s3 : Vec F S1024x1 .f32)
    (E : Set ℕ) (K : PUnit → sProp 𝕄) :
    iprop(owns (c : Thread nD τ) arg2 fullShare x0
        ∗ owns (c : Thread nD τ) arg3 fullShare x1
        ∗ owns (c : Thread nD τ) arg4 fullShare l0
        ∗ owns (c : Thread nD τ) arg5 fullShare l1
        ∗ owns (c : Thread nD τ) arg6 fullShare o0
        ∗ owns (c : Thread nD τ) arg7 fullShare o1
        ∗ owns (c : Thread nD τ) arg8 fullShare s0
        ∗ owns (c : Thread nD τ) arg9 fullShare s1
        ∗ owns (c : Thread nD τ) arg10 fullShare s2
        ∗ owns (c : Thread nD τ) arg11 fullShare s3
        ∗ (iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare o0
            ∗ owns (c : Thread nD τ) arg7 fullShare o1
            ∗ owns (c : Thread nD τ) arg8 fullShare (k0_pay3 (k0_pay17 i x0 x1 l0 l1))
            ∗ owns (c : Thread nD τ) arg9 fullShare (k0_pay4 (k0_pay18 x0 x1 l0 l1))
            ∗ owns (c : Thread nD τ) arg10 fullShare (k0_pay5 (k0_pay15 i l0 l1) (Scalar.ofBits .f32 0x00000000#32) (k0_pay19 (F := F)))
            ∗ owns (c : Thread nD τ) arg11 fullShare (k0_pay6 (F := F) (k0_pay16 l0 l1))) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact hc1 | exact hc2 | exact hc3)
  sl_step
  iapply Hk
  have hz2 : (![0, 0] : Fin 2 → Nat) = fun _ => 0 := by funext a; fin_cases a <;> rfl
  have hz1 : (![0] : Fin 1 → Nat) = fun _ => 0 := by funext a; fin_cases a; rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y
  isplitl [H9]
  · iexists _; isplitr
    swap; · iexact H9
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y
  isplitl [H10]
  · iexists _; isplitr
    swap; · iexact H10
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y
  · iexists _; isplitr
    swap; · iexact H11
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y

end Cert.KernelIdeal.Hand

end
-- ==== Proof.FrameKI.RunB.lean ====
import proofs.«134814_j36069135351986_1_alg».proof.Proof.FrameKI.Data

/-! At a point of `b = 1` or `b = 2` the body joins this tile's columns into the four scratch columns (max, min, max, max) and leaves the output blocks as it found them. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point of `b = 1` or `b = 2` the body joins this tile's columns into the four scratch columns (max, min, max, max) and leaves the output blocks as it found them. On whole staging and scratch memrefs: the inputs' at their blocks, everything the body
    does not store into handed back as found, each buffer it stores into at the stored column. -/
theorem runB (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : ¬cond1 i) (hc2 : cond2 i) (hc3 : ¬cond3 i)
    (x0 x1 : Vec F S1024x128 .f32) (l0 l1 : Vec F S1024 .i32) (o0 o1 s0 s1 s2 s3 : Vec F S1024x1 .f32)
    (E : Set ℕ) (K : PUnit → sProp 𝕄) :
    iprop(owns (c : Thread nD τ) arg2 fullShare x0
        ∗ owns (c : Thread nD τ) arg3 fullShare x1
        ∗ owns (c : Thread nD τ) arg4 fullShare l0
        ∗ owns (c : Thread nD τ) arg5 fullShare l1
        ∗ owns (c : Thread nD τ) arg6 fullShare o0
        ∗ owns (c : Thread nD τ) arg7 fullShare o1
        ∗ owns (c : Thread nD τ) arg8 fullShare s0
        ∗ owns (c : Thread nD τ) arg9 fullShare s1
        ∗ owns (c : Thread nD τ) arg10 fullShare s2
        ∗ owns (c : Thread nD τ) arg11 fullShare s3
        ∗ (iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare o0
            ∗ owns (c : Thread nD τ) arg7 fullShare o1
            ∗ owns (c : Thread nD τ) arg8 fullShare (k0_pay7 (k0_pay17 i x0 x1 l0 l1) s0)
            ∗ owns (c : Thread nD τ) arg9 fullShare (k0_pay8 (k0_pay18 x0 x1 l0 l1) s1)
            ∗ owns (c : Thread nD τ) arg10 fullShare (k0_pay9 (k0_pay15 i l0 l1) (Scalar.ofBits .f32 0x00000000#32) (k0_pay19 (F := F)) s2)
            ∗ owns (c : Thread nD τ) arg11 fullShare (k0_pay10 (k0_pay16 l0 l1) s3)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  simp only [cc0__triplet_kernel_eq_skeleton]; unfold cc0__triplet_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11
  sl_exec (disch := first | exact hc1 | exact hc2 | exact hc3)
  sl_step
  iapply Hk
  have hz2 : (![0, 0] : Fin 2 → Nat) = fun _ => 0 := by funext a; fin_cases a <;> rfl
  have hz1 : (![0] : Fin 1 → Nat) = fun _ => 0 := by funext a; fin_cases a; rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y
  isplitl [H9]
  · iexists _; isplitr
    swap; · iexact H9
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y
  isplitl [H10]
  · iexists _; isplitr
    swap; · iexact H10
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y
  · iexists _; isplitr
    swap; · iexact H11
    ipureintro
    rw [View.read_writes_eq_canon]
    · rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2])
      try rfl
    · intro y
      refine ⟨_, List.mem_singleton_self _, ?_⟩
      exact View.mem_set_unit_zero hz2 Cert.KernelIdeal.Facts₀.inb_S1024x1_S1024x1_0_0 y

end Cert.KernelIdeal.Hand

end
-- ==== Proof.FrameKI.RunCD.lean ====
import proofs.«134814_j36069135351986_1_alg».proof.Proof.FrameKI.Data

/-! At a point of `b = 3` the body joins this tile's columns into the four scratch columns, then stores the row losses and the row indicators, computed from the joined columns, into the two output blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run at a point of `b = 3`, with what its stores leave in each buffer it stores into as a list of
    written pieces (last first): on whole staging and scratch memrefs, the inputs' at their blocks, the two output
    blocks at anything, the four scratch columns at what the point before left, it runs to the continuation holding
    the inputs' as they were and each of the six buffers it stored into with its pieces written. -/
noncomputable def kernelRunC (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : ¬cond1 i) (hc2 : cond2 i) (hc3 : cond3 i)
    (x0 x1 : Vec F S1024x128 .f32) (l0 l1 : Vec F S1024 .i32) (s0 s1 s2 s3 : Vec F S1024x1 .f32) :
    Σ' (L6 L7 L8 L9 L10 : List (View.Piece (Elt F) S1024x1 .f32)), { L11 : List (View.Piece (Elt F) S1024x1 .f32) //
      ∀ (o0 o1 : Vec F S1024x1 .f32) (E : Set ℕ) (K : PUnit → sProp 𝕄),
        iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare o0
            ∗ owns (c : Thread nD τ) arg7 fullShare o1
            ∗ owns (c : Thread nD τ) arg8 fullShare s0
            ∗ owns (c : Thread nD τ) arg9 fullShare s1
            ∗ owns (c : Thread nD τ) arg10 fullShare s2
            ∗ owns (c : Thread nD τ) arg11 fullShare s3
            ∗ (iprop(owns (c : Thread nD τ) arg2 fullShare x0
                ∗ owns (c : Thread nD τ) arg3 fullShare x1
                ∗ owns (c : Thread nD τ) arg4 fullShare l0
                ∗ owns (c : Thread nD τ) arg5 fullShare l1
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, ?_, ?_, fun o0 o1 E K => ?run⟩
  case run =>
    simp only [cc0__triplet_kernel_eq_skeleton]; unfold cc0__triplet_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    obtain rfl := harg10.eq_unread hf10; obtain rfl := harg11.eq_unread hf11
    sl_exec (disch := first | exact hc1 | exact hc2 | exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.KernelIdeal.Hand

end
-- ==== Proof.FrameKI.RunC.lean ====
import proofs.«134814_j36069135351986_1_alg».proof.Proof.FrameKI.RunCD

/-! At a point of `b = 3` the body joins this tile's columns into the four scratch columns, then stores the row losses and the row indicators, computed from the joined columns, into the two output blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At a point of `b = 3` the body joins this tile's columns into the four scratch columns, then stores the row losses and the row indicators, computed from the joined columns, into the two output blocks. Every buffer read back through its single covering piece. -/
theorem runC (c : Dev nD) (i : grid0.Coords)
    (arg2 : Memref sig .tc .vmem S1024x128 .f32) (harg2 : arg2.IsWhole) (arg3 : Memref sig .tc .vmem S1024x128 .f32) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (arg10 : Memref sig .tc .vmem S1024x1 .f32) (harg10 : arg10.IsWhole) (arg11 : Memref sig .tc .vmem S1024x1 .f32) (harg11 : arg11.IsWhole)
    (hc1 : ¬cond1 i) (hc2 : cond2 i) (hc3 : cond3 i)
    (x0 x1 : Vec F S1024x128 .f32) (l0 l1 : Vec F S1024 .i32) (o0 o1 s0 s1 s2 s3 : Vec F S1024x1 .f32)
    (E : Set ℕ) (K : PUnit → sProp 𝕄) :
    iprop(owns (c : Thread nD τ) arg2 fullShare x0
        ∗ owns (c : Thread nD τ) arg3 fullShare x1
        ∗ owns (c : Thread nD τ) arg4 fullShare l0
        ∗ owns (c : Thread nD τ) arg5 fullShare l1
        ∗ owns (c : Thread nD τ) arg6 fullShare o0
        ∗ owns (c : Thread nD τ) arg7 fullShare o1
        ∗ owns (c : Thread nD τ) arg8 fullShare s0
        ∗ owns (c : Thread nD τ) arg9 fullShare s1
        ∗ owns (c : Thread nD τ) arg10 fullShare s2
        ∗ owns (c : Thread nD τ) arg11 fullShare s3
        ∗ (iprop(owns (c : Thread nD τ) arg2 fullShare x0
            ∗ owns (c : Thread nD τ) arg3 fullShare x1
            ∗ owns (c : Thread nD τ) arg4 fullShare l0
            ∗ owns (c : Thread nD τ) arg5 fullShare l1
            ∗ owns (c : Thread nD τ) arg6 fullShare (k0_pay12 (k0_pay7 (k0_pay17 i x0 x1 l0 l1) s0) (k0_pay8 (k0_pay18 x0 x1 l0 l1) s1) (k0_pay9 (k0_pay15 i l0 l1) (Scalar.ofBits .f32 0x00000000#32) (k0_pay19 (F := F)) s2) (k0_pay10 (k0_pay16 l0 l1) s3))
            ∗ owns (c : Thread nD τ) arg7 fullShare (k0_pay11 (k0_pay9 (k0_pay15 i l0 l1) (Scalar.ofBits .f32 0x00000000#32) (k0_pay19 (F := F)) s2) (k0_pay10 (k0_pay16 l0 l1) s3))
            ∗ owns (c : Thread nD τ) arg8 fullShare (k0_pay7 (k0_pay17 i x0 x1 l0 l1) s0)
            ∗ owns (c : Thread nD τ) arg9 fullShare (k0_pay8 (k0_pay18 x0 x1 l0 l1) s1)
            ∗ owns (c : Thread nD τ) arg10 fullShare (k0_pay9 (k0_pay15 i l0 l1) (Scalar.ofBits .f32 0x00000000#32) (k0_pay19 (F := F)) s2)
            ∗ owns (c : Thread nD τ) arg11 fullShare (k0_pay10 (k0_pay16 l0 l1) s3)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K := by
  have hz2 : (![0, 0] : Fin 2 → Nat) = fun _ => 0 := by funext a; fin_cases a <;> rfl
  have hz1 : (![0] : Fin 1 → Nat) = fun _ => 0 := by funext a; fin_cases a; rfl
  iintro ⟨H2, H3, H4, H5, H6, H7, H8, H9, H10, H11, Hk⟩
  iapply ((kernelRunC c i arg2 harg2 arg3 harg3 arg4 harg4 arg5 harg5 arg6 harg6 arg7 harg7 arg8 harg8 arg9 harg9 arg10 harg10 arg11 harg11 hc1 hc2 hc3 x0 x1 l0 l1 s0 s1 s2 s3).2.2.2.2.2.2 o0 o1 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H2, H3, H4, H5, ⟨%f6, H6⟩, ⟨%f7, H7⟩, ⟨%f8, H8⟩, ⟨%f9, H9⟩, ⟨%f10, H10⟩, ⟨%f11, H11⟩⟩
  iapply Hk
  isplitl [H2]; · iexact H2
  isplitl [H3]; · iexact H3
  isplitl [H4]; · iexact H4
  isplitl [H5]; · iexact H5
  unfold owns
  isplitl [H6]
  · iexists _; isplitr
    swap; · iexact H6
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.KernelIdeal.Facts₀.inb_S1024x1_S1024x1_0_0 y
  isplitl [H7]
  · iexists _; isplitr
    swap; · iexact H7
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.KernelIdeal.Facts₀.inb_S1024x1_S1024x1_0_0 y
  isplitl [H8]
  · iexists _; isplitr
    swap; · iexact H8
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.KernelIdeal.Facts₀.inb_S1024x1_S1024x1_0_0 y
  isplitl [H9]
  · iexists _; isplitr
    swap; · iexact H9
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.KernelIdeal.Facts₀.inb_S1024x1_S1024x1_0_0 y
  isplitl [H10]
  · iexists _; isplitr
    swap; · iexact H10
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.KernelIdeal.Facts₀.inb_S1024x1_S1024x1_0_0 y
  · iexists _; isplitr
    swap; · iexact H11
    ipureintro
    rw [View.read_writes_eq_canon]
    · unfold kernelRunC; (try dsimp only); sl_unfold_words
      rw [View.canon_unit_zero hz2]
      (try dsimp only)
      (try simp only [View.readAt_eq_ld, harg2.read_unread, harg3.read_unread, harg4.read_unread, harg5.read_unread, harg8.read_unread, harg9.read_unread, harg10.read_unread, harg11.read_unread, View.ld_unit_zero (S := S1024x128) hz2, View.ld_unit_zero (S := S1024) hz1, View.ld_unit_zero (S := S1024x1) hz2, View.readCov_unit_zero (S := S1024x1) _ hz2])
      try rfl
    · intro y
      unfold kernelRunC; (try dsimp only); sl_unfold_words
      refine ⟨_, List.mem_singleton_self _, ?_⟩
      exact View.mem_set_unit_zero hz2 Cert.KernelIdeal.Facts₀.inb_S1024x1_S1024x1_0_0 y

end Cert.KernelIdeal.Hand

end
-- ==== Proof.FrameKI.Body.lean ====
import proofs.«134814_j36069135351986_1_alg».proof.Proof.FrameKI.RunA
import proofs.«134814_j36069135351986_1_alg».proof.Proof.FrameKI.RunB
import proofs.«134814_j36069135351986_1_alg».proof.Proof.FrameKI.RunC

/-!
# The body at every point of the grid

The column run `b = t % 4` of a point decides which of the three runs of the body applies; the region's
invariant hands the body the four scratch columns at what the point before left (at anything before the first
point) and takes them back at this point's value; an output block is handed back untouched wherever the body
stores nothing into it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  have hN : t.val < 16 := lt_of_lt_of_eq t.isLt (show cfg0.N = 16 from N_0)
  by_cases h0 : t.val % 4 = 0
  · have c1 : cond1 (grid0.coords t) := (hcond1 t).mpr h0
    have c2 : ¬cond2 (grid0.coords t) := fun h => (hcond2 t).mp h h0
    have c3 : ¬cond3 (grid0.coords t) := fun h => by have := (hcond3 t).mp h; omega
    rw [Dat.leavesExact_idle (dats m 0 c) 4 t (idle4 t c3) (noFlush4 t c3), Dat.leavesExact_idle (dats m 0 c) 5 t (idle5 t c3) (noFlush5 t c3)]
    rw [colsAt_reset m c t h0]
    unfold colsReset; (try dsimp only)
    by_cases hz : t.val = 0
    · rw [PhiS_castSucc m c t, PhiS_zero m c _ _ hz, scopedRest_eq]
      iintro ⟨⟨⟨%e0, HS0⟩, ⟨%e1, HS1⟩, ⟨%e2, HS2⟩, ⟨%e3, HS3⟩⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply (runA c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have c1 : ¬cond1 (grid0.coords t) := fun h => h0 ((hcond1 t).mp h)
    have c2 : cond2 (grid0.coords t) := (hcond2 t).mpr h0
    by_cases h3 : t.val % 4 = 3
    · have c3 : cond3 (grid0.coords t) := (hcond3 t).mpr h3
      rw [show (dats m 0 c).leavesExact 4 t = owns (c : Thread nD τ) (ms4 t) fullShare ((dats m 0 c).after 4 t) from by
        unfold Dat.leavesExact; rw [live4 t c3], after4]
      rw [show (dats m 0 c).leavesExact 5 t = owns (c : Thread nD τ) (ms5 t) fullShare ((dats m 0 c).after 5 t) from by
        unfold Dat.leavesExact; rw [live5 t c3], after5]
      rw [colsAt_join m c t h0]
      unfold outLoss outValid colsJoin; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexact H4
      iexact H5
    · have c3 : ¬cond3 (grid0.coords t) := fun h => h3 ((hcond3 t).mp h)
      rw [Dat.leavesExact_idle (dats m 0 c) 4 t (idle4 t c3) (noFlush4 t c3), Dat.leavesExact_idle (dats m 0 c) 5 t (idle5 t c3) (noFlush5 t c3)]
      rw [colsAt_join m c t h0]
      unfold colsJoin; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ _ _ c1 c2 c3 (iblk m c 0 t) (iblk m c 1 t) (iblk m c 2 t) (iblk m c 3 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3]
      · isplitl [HS0]; · iexact HS0
        isplitl [HS1]; · iexact HS1
        isplitl [HS2]; · iexact HS2
        iexact HS3
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.Exit.lean ====
import proofs.«134814_j36069135351986_1_alg».proof.Proof.FrameKI.Data

/-!
# Around the region: the host stretches, the arrays' shares, and the stretch after the region

The normalised matrix is handed to the kernel through TWO windows (the row run and the column run), and so are the
labels: four buffers stand behind six windows. Each of the two shared buffers is held by its two windows at half
the share each. The stretch after the region (two sums, a maximum, a quotient) reads the two result arrays; it is
run with every unscoped buffer held whole, the halves joined before it and parted after it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq bigSep_sdiff_split)

variable (m : (ℓ : Loc nD τ sig) → Buf (Elt F) ℓ) (ρ : Dev nD → PrngReg)

/-! ## @main around the region -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the row norms, the division, the region, then the two sums and their quotient: it reduces to the
    region continued by the last stretch, at the contents after the first two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨fresh0, fresh0_1⟩) main_chain

/-- The last stretch touches unscoped TensorCore buffers only, -/
theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop
/-- and writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-! ## The arrays: four buffers behind six windows -/

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl

/-- The four distinct buffers behind the windows' arrays, each whole at the full share at contents `Vx`, ARE the
    six windows' arrays at their shares: the normalised matrix split in two halves between the row-run and the
    column-run window, the labels likewise, the two results whole. -/
theorem arrays_iff (c : Dev nD) (Vx : (b : Ref sig .tc) → Buf (Elt F) ((c.tc : Thread nD τ).loc b))
    (G : (w : Fin cfg0.W) → Buf (Elt F) ((cfg0.win w).arr.view.loc (c.tc : Thread nD τ)))
    (hG : ∀ w, G w = Vx (Pipeline.arrRef spec0 w)) :
    (Pipeline.arrBufs spec0 c Vx : sProp 𝕄) ⊣⊢ (dats m 0 c).arrays G := by
  have himg : Finset.univ.image (Pipeline.arrRef spec0) = ([main_v4, main_arg1, main_v5_0, main_v5_1] : List (Ref sig .tc)).toFinset := by decide
  unfold Pipeline.arrBufs Dat.arrays
  rw [bigSep_W0, bigSep_eq_bigSepL_of_eq _ himg (by decide)]
  show iprop((((c.tc : Thread nD τ).loc main_v4) ↦{fullShare} Vx main_v4) ∗ (((c.tc : Thread nD τ).loc main_arg1) ↦{fullShare} Vx main_arg1)
      ∗ (((c.tc : Thread nD τ).loc main_v5_0) ↦{fullShare} Vx main_v5_0) ∗ (((c.tc : Thread nD τ).loc main_v5_1) ↦{fullShare} Vx main_v5_1)) ⊣⊢ _
  rw [hG 0, hG 1, hG 2, hG 3, hG 4, hG 5, share0, share1, share2, share3, share4, share5,
    (arr_whole0 0).set_eq_univ, (arr_whole0 2).set_eq_univ, (arr_whole0 4).set_eq_univ, (arr_whole0 5).set_eq_univ]
  refine ⟨?_, ?_⟩
  · iintro ⟨Ha, Hb, Hc, Hd⟩
    ihave Ha := (pointsTo_share (PosShare.mem_left_op_right fullShare)).1 $$ Ha
    icases Ha with ⟨Ha1, Ha2⟩
    ihave Hb := (pointsTo_share (PosShare.mem_left_op_right fullShare)).1 $$ Hb
    icases Hb with ⟨Hb1, Hb2⟩
    isplitl [Ha1]; · iexact Ha1
    isplitl [Ha2]; · iexact Ha2
    isplitl [Hb1]; · iexact Hb1
    isplitl [Hb2]; · iexact Hb2
    isplitl [Hc]; · iexact Hc
    iexact Hd
  · iintro ⟨Ha1, Ha2, Hb1, Hb2, Hc, Hd⟩
    ihave Ha := (pointsTo_share (PosShare.mem_left_op_right fullShare)).2 $$ [Ha1 Ha2]
    · isplitl [Ha1]; · iexact Ha1
      iexact Ha2
    ihave Hb := (pointsTo_share (PosShare.mem_left_op_right fullShare)).2 $$ [Hb1 Hb2]
    · isplitl [Hb1]; · iexact Hb1
      iexact Hb2
    isplitl [Ha]; · iexact Ha
    isplitl [Hb]; · iexact Hb
    isplitl [Hc]; · iexact Hc
    iexact Hd

/-! ## What the buffers hold when the region is left -/

/-- The contents with the windows' arrays at `A`, read at a window's array, are that window's: though two windows
    may name one array, every window naming it holds the same contents there (`hA`). -/
theorem withArrays_at (c : Dev nD) (Vv : Valuation τ sig (Elt F))
    (A : (w : Fin cfg0.W) → Buf (Elt F) ((spec0 w).arr.view.loc (c.tc : Thread nD τ))) (w : Fin cfg0.W)
    (hA : ∀ w' (e : Proc.devRef .tc (Pipeline.arrRef spec0 w') = Proc.devRef (τ := τ) .tc (Pipeline.arrRef spec0 w)),
      cast (congrArg (fun b' : DevRef τ sig => b'.ty.Contents (Elt F)) e) (A w') = A w) :
    Pipeline.withArrays spec0 c Vv A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  exact hA _ h.choose_spec

/-! ## The last stretch, run from the region's exit -/

open Classical in
/-- The buffers when the region is left: the two result arrays at what the write-backs made of them, every other
    buffer as the region found it (no write-back touches the matrix or the labels). -/
def Wexit (c : Dev nD) : Valuation τ sig (Elt F) :=
  Function.update (Function.update (V0 m c) (Proc.devRef .tc main_v5_0) ((dats m 0 c).arrAt 4 cfg0.N))
    (Proc.devRef .tc main_v5_1) ((dats m 0 c).arrAt 5 cfg0.N)

theorem Wexit_v5_1 (c : Dev nD) : Wexit m c (Proc.devRef .tc main_v5_1) = (dats m 0 c).arrAt 5 cfg0.N := by
  unfold Wexit; exact Function.update_self _ _ _

theorem Wexit_v5_0 (c : Dev nD) : Wexit m c (Proc.devRef .tc main_v5_0) = (dats m 0 c).arrAt 4 cfg0.N := by
  unfold Wexit
  rw [Function.update_of_ne (StableHlo.devRef_ne_of_ne (by decide))]
  exact Function.update_self _ _ _

theorem Wexit_other (c : Dev nD) (b : Ref sig .tc) (h4 : b ≠ main_v5_0) (h5 : b ≠ main_v5_1) :
    Wexit m c (Proc.devRef .tc b) = V m c b := by
  unfold Wexit
  rw [Function.update_of_ne (StableHlo.devRef_ne_of_ne h5), Function.update_of_ne (StableHlo.devRef_ne_of_ne h4)]

/-- Every window's array at the region's exit is its buffer's contents there. -/
theorem arrAt_exit (c : Dev nD) (w : Fin cfg0.W) :
    (dats m 0 c).arrAt w cfg0.N = Wexit m c (Proc.devRef .tc (Pipeline.arrRef spec0 w)) := by
  have hin : ∀ v : Fin cfg0.W, (cfg0.win v).isOut = false → (dats m 0 c).arrAt v cfg0.N = V m c (Pipeline.arrRef spec0 v) :=
    fun v hv => ((dats m 0 c).arrAt_in v hv _).trans (A_eq m c v)
  fin_cases w
  · exact (hin 0 rfl).trans (Wexit_other m c _ (by decide) (by decide)).symm
  · exact (hin 1 rfl).trans (Wexit_other m c _ (by decide) (by decide)).symm
  · exact (hin 2 rfl).trans (Wexit_other m c _ (by decide) (by decide)).symm
  · exact (hin 3 rfl).trans (Wexit_other m c _ (by decide) (by decide)).symm
  · exact (Wexit_v5_0 m c).symm
  · exact (Wexit_v5_1 m c).symm

/-- The buffers after the last stretch. -/
abbrev Wend (c : Dev nD) : Valuation τ sig (Elt F) := StableHlo.after (List.flatten [hostOps1]) (Wexit m c)

/-- The last stretch writes no window's array. -/
theorem Wend_arr (c : Dev nD) (w : Fin cfg0.W) :
    Wend m c (Proc.devRef .tc (Pipeline.arrRef spec0 w)) = Wexit m c (Proc.devRef .tc (Pipeline.arrRef spec0 w)) := by
  unfold Wend
  rw [StableHlo.after_of_forall_not_mem _ _ fun op hop => ?_]
  obtain ⟨ops, hops, hop⟩ := List.mem_flatten.mp hop
  exact sfx_keeps ops hops op hop w

theorem arr_unscoped : ∀ w, (Pipeline.arrRef spec0 w).isScoped = false := by decide

set_option backward.isDefEq.respectTransparency.types false in
/-- From the region's exit — the windows' arrays at their shares, the bypassing buffers as the region found them — the
    two sums, the maximum and the quotient run within the unscoped buffers held whole (the two halves of the matrix
    and of the labels put together for the run and parted again after it), and hand back the same at the contents
    after them. -/
theorem tail (c : Dev nD) (Q' : PUnit → sProp 𝕄) :
    iprop((iprop((dats m 0 c).arrays ((dats m 0 c).arrAt · cfg0.N)
            ∗ Pipeline.unscopedRest (Ix := Unit) (Name := ℕ) (U := UR sig nD τ) (Lvl := ℕ) spec0 c (fun b => Wend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  classical
  have hrest : (Pipeline.unscopedRest (Ix := Unit) (Name := ℕ) (U := UR sig nD τ) (Lvl := ℕ) spec0 c (V m c) : sProp 𝕄)
      = Pipeline.unscopedRest spec0 c (fun b => Wexit m c (Proc.devRef .tc b)) := by
    unfold Pipeline.unscopedRest
    exact bigSep_congr fun b hb => by
      have hb' := (Finset.mem_sdiff.mp hb).2
      beta_reduce
      rw [Wexit_other m c b (fun h => hb' (h ▸ Finset.mem_image.mpr ⟨4, Finset.mem_univ _, rfl⟩))
        (fun h => hb' (h ▸ Finset.mem_image.mpr ⟨5, Finset.mem_univ _, rfl⟩))]
  have hheld : ∀ W : Valuation τ sig (Elt F),
      (StableHlo.held (c.tc : Thread nD τ) (Pipeline.ucRefs τ sig) W : sProp 𝕄)
        = iprop((Pipeline.arrBufs spec0 c (fun b => W (Proc.devRef .tc b)) : sProp 𝕄) ∗ Pipeline.unscopedRest spec0 c (fun b => W (Proc.devRef .tc b))) := fun W =>
    (Pipeline.unscopedBufs_held (Ix := Unit) (Name := ℕ) (U := UR sig nD τ) (Lvl := ℕ) c W).symm.trans
      (Pipeline.unscopedBufs_split₀ cfgs 0 arr_unscoped c (fun b => W (Proc.devRef .tc b)))
  rw [hrest, show Pipeline.chain [StableHlo.seq hostOps1] = Pipeline.chain (([hostOps1] : List (List (HloOp τ sig (Elt F)))).map StableHlo.seq ++ []) from rfl]
  iintro ⟨Hk, Hb, Harr, Hrest⟩
  ihave Hbufs := (arrays_iff m c (fun b => Wexit m c (Proc.devRef .tc b)) _ (arrAt_exit m c)).2 $$ Harr
  ihave Hheld := (Entails.of_eq (hheld (Wexit m c)).symm) $$ [Hbufs Hrest]
  · isplitl [Hbufs]; · iexact Hbufs
    iexact Hrest
  iapply (Pipeline.wp_seqs_then (fun q => Cfg.toPCfg (Val := Elt F) (cfgs q)) defs₀ Variants.none c (Pipeline.ucRefs τ sig) [] [hostOps1] sfx_sub sfx_fresh (Wexit m c)) $$ [Hb Hheld]
  · isplitl [Hb]; · iexact Hb
    iexact Hheld
  iintro ⟨Hb, Hheld⟩
  rw [Pipeline.chain_nil, wp_pure]
  imodintro
  iapply Hk
  ihave H2 := (Entails.of_eq (hheld (Wend m c))) $$ Hheld
  icases H2 with ⟨Hbufs, Hrest⟩
  isplitl [Hbufs]
  · iapply (arrays_iff m c (fun b => Wend m c (Proc.devRef .tc b)) _ (fun w => (arrAt_exit m c w).trans (Wend_arr m c w).symm)).1
    iexact Hbufs
  iexact Hrest

/-! ## The run's post -/

/-- What the run ends in: every window's array at what the write-backs made of it, every bypassing buffer at the
    contents after the last stretch. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = Wend m c (Proc.devRef .tc b)

end Cert.KernelIdeal.Hand

end
-- ==== Proof.FrameKI.Launch.lean ====
import proofs.«134814_j36069135351986_1_alg».proof.Proof.FrameKI.Body
import proofs.«134814_j36069135351986_1_alg».proof.Proof.FrameKI.Exit

/-! The whole run: the launch of the one region, whose input windows share arrays, continued by the last stretch. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1000000 in
/-- At the compiled mesh, for any float values, from any memory with zero counters: every weakly fair execution of
    @main on the TensorCores terminates, nothing faulting, every window's array ending at what the write-backs
    made of it and every bypassing buffer at the contents after the last stretch. -/
theorem run_main : θ_run defs (onTc (τ := τ) (main (F := F))) (s₀ m ρ) (RunPost m) := by
  classical
  exact Pipeline.θ_run_region_noSem_pf_tail (fun p => (cfgs p).toPCfg) (fun p => (cfgs p).toPCfg_adm) (dats m) () cellOf_inj 0 winFacts₀0
    (Pipeline.PreFacts.none _) emb₁ defs₀ Variants.none m ρ main (fun _ => Pipeline.chain [StableHlo.seq hostOps1])
    (fun c => (body_obligation m c).loose) block_pos0 arr_whole0 stage_whole0 (fun _ _ => rfl)
    (u₀ := initOf (Pipeline.cells cfgs cellOf_inj) (Pipeline.launchToks cfgs cellOf_inj)) (hu₀ := BI.Entails.refl _)
    (V := V m) (hmain := hmain m Variants.none)
    (hsplit := fun c => (arrays_iff m c (V m c) _ (fun w => A_eq m c w)).1)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Wend m c (Proc.devRef .tc b)))
    (hX := fun c => by
      rw [Pipeline.unscopedRestP_none]
      iintro H; isplitr
      · iempintro
      · iexact H)
    (hin := fun c => by
      rw [show (dats m 0 c).Φ 0 = Pipeline.scopedRest (Ix := Unit) (Name := ℕ) (U := UR sig nD τ) (Lvl := ℕ) (Val := Elt F) spec0 c from rfl]
      iintro ⟨-, -, H⟩; iexact H)
    (hout := fun c => by
      rw [show (dats m 0 c).Φ (Fin.last cfg0.N) = PhiS m c cfg0.N (le_refl _) from rfl,
        PhiS_pos m c _ _ (by rw [show cfg0.N = 16 from N_0]; decide), scopedRest_eq]
      iintro ⟨H0, H1, H2, H3⟩
      isplitr; · iempintro
      isplitl [H0]; · iexists _; iexact H0
      isplitl [H1]; · iexists _; iexact H1
      isplitl [H2]; · iexists _; iexact H2
      iexists _; iexact H3)
    (htail := fun c Q' => tail m c Q')
    (QY := fun c s => ∀ b ∈ Pipeline.restRefs sig spec0, s.mem ((c.tc : Thread nD τ).loc b) = Wend m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Wend m c (Proc.devRef .tc b)) s')
      isplitl [HU] <;> iassumption)
    (hQ := fun s h c => ⟨(h c).1, (h c).2.2⟩)

end Cert.KernelIdeal.Hand

end
-- ==== Proof.ArgsK.lean ====
import proofs.«134814_j36069135351986_1_alg».proof.Proof.FrameK.Exit
import Idealize.ShloMosaic.Lib.StableHlo.Run

/-! Both arguments end as they began, for any float values: the first bypasses the region and no operation around
    it writes it; the second is an input window's array, which no write-back touches and no operation writes. -/

set_option maxRecDepth 16384

noncomputable section

namespace Cert.Proof.TripletK

open Cert.Kernel Cert.Kernel.Gen Cert.Kernel.Hand
open Idealize.ShloMosaic Idealize.ShloMosaic.TcCoe Idealize.SL.Sem Idealize.ShloMosaic.StableHlo

section AnyValues

variable {F : FTy → Type} [FloatOps F] (m : (ℓ : Loc nD τ sig) → Buf (Elt F) ℓ)

/-- No operation before the region writes the first argument. -/
theorem entry_arg0 (c : Dev nD) : V m c main_arg0 = m ((c.tc : Thread nD τ).loc main_arg0) := by
  dsimp only [V, V0]
  simp only [hostOps0, hostOps0_1, List.flatten_cons, List.flatten_nil, List.append_nil, List.cons_append, List.nil_append]
  after_results

/-- No operation before the region writes the second argument. -/
theorem entry_arg1 (c : Dev nD) : V m c main_arg1 = m ((c.tc : Thread nD τ).loc main_arg1) := by
  dsimp only [V, V0]
  simp only [hostOps0, hostOps0_1, List.flatten_cons, List.flatten_nil, List.append_nil, List.cons_append, List.nil_append]
  after_results

/-- The operations after the region do not write the first argument. -/
theorem tail_keeps0 (W : Valuation τ sig (Elt F)) :
    StableHlo.after hostOps1 W (Proc.devRef .tc main_arg0) = W (Proc.devRef .tc main_arg0) := by
  simp only [hostOps1]
  after_results

/-- What the run ends in leaves both arguments as they were: the first bypasses the region and no operation
    around it writes it; the second is an input window's array, which no write-back touches. -/
theorem args_of_post (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) := by
  refine ⟨?_, ?_⟩
  · have hmem : main_arg0 ∈ Pipeline.restRefs sig spec0 := by decide
    rw [(h c).2 main_arg0 hmem]
    show StableHlo.after hostOps1 (Wexit m c) (Proc.devRef .tc main_arg0) = _
    rw [tail_keeps0, Wexit_other m c main_arg0 (by decide) (by decide), entry_arg0]
  · exact ((h c).1 2).trans (((dats m 0 c).arrAt_in 2 rfl _).trans ((A_eq m c 2).trans (entry_arg1 m c)))

end AnyValues

end Cert.Proof.TripletK

end
-- ==== Proof.ArgsKI.lean ====
import proofs.«134814_j36069135351986_1_alg».proof.Proof.FrameKI.Exit
import Idealize.ShloMosaic.Lib.StableHlo.Run

/-! Both arguments end as they began, for any float values: the first bypasses the region and no operation around
    it writes it; the second is an input window's array, which no write-back touches and no operation writes. -/

set_option maxRecDepth 16384

noncomputable section

namespace Cert.Proof.TripletKI

open Cert.KernelIdeal Cert.KernelIdeal.Gen Cert.KernelIdeal.Hand
open Idealize.ShloMosaic Idealize.ShloMosaic.TcCoe Idealize.SL.Sem Idealize.ShloMosaic.StableHlo

section AnyValues

variable {F : FTy → Type} [FloatOps F] (m : (ℓ : Loc nD τ sig) → Buf (Elt F) ℓ)

/-- No operation before the region writes the first argument. -/
theorem entry_arg0 (c : Dev nD) : V m c main_arg0 = m ((c.tc : Thread nD τ).loc main_arg0) := by
  dsimp only [V, V0]
  simp only [hostOps0, hostOps0_1, List.flatten_cons, List.flatten_nil, List.append_nil, List.cons_append, List.nil_append]
  after_results

/-- No operation before the region writes the second argument. -/
theorem entry_arg1 (c : Dev nD) : V m c main_arg1 = m ((c.tc : Thread nD τ).loc main_arg1) := by
  dsimp only [V, V0]
  simp only [hostOps0, hostOps0_1, List.flatten_cons, List.flatten_nil, List.append_nil, List.cons_append, List.nil_append]
  after_results

/-- The operations after the region do not write the first argument. -/
theorem tail_keeps0 (W : Valuation τ sig (Elt F)) :
    StableHlo.after hostOps1 W (Proc.devRef .tc main_arg0) = W (Proc.devRef .tc main_arg0) := by
  simp only [hostOps1]
  after_results

/-- What the run ends in leaves both arguments as they were: the first bypasses the region and no operation
    around it writes it; the second is an input window's array, which no write-back touches. -/
theorem args_of_post (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) := by
  refine ⟨?_, ?_⟩
  · have hmem : main_arg0 ∈ Pipeline.restRefs sig spec0 := by decide
    rw [(h c).2 main_arg0 hmem]
    show StableHlo.after hostOps1 (Wexit m c) (Proc.devRef .tc main_arg0) = _
    rw [tail_keeps0, Wexit_other m c main_arg0 (by decide) (by decide), entry_arg0]
  · exact ((h c).1 2).trans (((dats m 0 c).arrAt_in 2 rfl _).trans ((A_eq m c 2).trans (entry_arg1 m c)))

end AnyValues

end Cert.Proof.TripletKI

end
-- ==== Proof.Spec.lean ====
import Idealize.ShloMosaic.PureOps.Ideal
import Idealize.ShloMosaic.Lib.ValueIdx

/-!
# Batch-hard triplet loss over cosine distances: the function both programs compute

For a matrix `E` of 4096 rows of 128 extended reals and 4096 integer labels `L`:
the distance of rows `r` and `c` is `1 - ∑ k, E r k * E c k`; a column `c` is a POSITIVE of row `r` when
the labels agree and `c ≠ r`, a NEGATIVE when the labels differ. The hardest positive of a row is the
maximum over all columns of the distance at the positives and `-1` elsewhere; the hardest negative the
minimum of the distance at the negatives and `3` elsewhere. A row is valid when it has a positive and a
negative. The result is the sum over the rows of `max (hardest positive - hardest negative + 0.3) 0` at the
valid rows, divided by `max (number of valid rows) 1`.

The literals `1`, `-1`, `3` and `0.3` of the distance and the sentinels stay the extended reals their
single-precision words denote: both programs spell the same words, and none is ever evaluated.
-/

noncomputable section

open scoped BigOperators

namespace Cert.Triplet

open Idealize.ShloMosaic Idealize.ShloMosaic.ValueIdx

/-- The embedding matrix's and the label vector's index sets. -/
abbrev SE : Shape := ⟨2, ![4096, 128]⟩
abbrev SL : Shape := ⟨1, ![4096]⟩

/-- The cosine distance of rows `r` and `c`. -/
def dist (E : SE.Idx → EReal) (r c : Fin 4096) : EReal :=
  Ideal.ofBits .f32 0x3F800000#32 - ∑ k : Fin 128, E (ix2 r k) * E (ix2 c k)

/-- Column `c` is a positive of row `r`: same label, another row. -/
def isPos (L : SL.Idx → BitVec 32) (r c : Fin 4096) : Prop := L (ix1 r) = L (ix1 c) ∧ r ≠ c

/-- Column `c` is a negative of row `r`: another label. -/
def isNeg (L : SL.Idx → BitVec 32) (r c : Fin 4096) : Prop := L (ix1 r) ≠ L (ix1 c)

instance (L : SL.Idx → BitVec 32) (r c : Fin 4096) : Decidable (isPos L r c) := by unfold isPos; infer_instance
instance (L : SL.Idx → BitVec 32) (r c : Fin 4096) : Decidable (isNeg L r c) := by unfold isNeg; infer_instance

/-- The distance to the farthest positive (`-1` stands for a column that is none). -/
def hardPos (E : SE.Idx → EReal) (L : SL.Idx → BitVec 32) (r : Fin 4096) : EReal :=
  Finset.univ.sup fun c : Fin 4096 => if isPos L r c then dist E r c else Ideal.ofBits .f32 0xBF800000#32

/-- The distance to the nearest negative (`3` stands for a column that is none). -/
def hardNeg (E : SE.Idx → EReal) (L : SL.Idx → BitVec 32) (r : Fin 4096) : EReal :=
  Finset.univ.inf fun c : Fin 4096 => if isNeg L r c then dist E r c else Ideal.ofBits .f32 0x40400000#32

/-- A row counts when it has a positive and a negative: `1` then, else `0`. -/
def validF (L : SL.Idx → BitVec 32) (r : Fin 4096) : EReal :=
  if (∃ c, isPos L r c) ∧ (∃ c, isNeg L r c) then 1 else 0

/-- The hinge of a row: `max (hardest positive - hardest negative + 0.3) 0`. -/
def hinge (E : SE.Idx → EReal) (L : SL.Idx → BitVec 32) (r : Fin 4096) : EReal :=
  max (hardPos E L r - hardNeg E L r + Ideal.ofBits .f32 0x3E99999A#32) 0

/-- A row's contribution: its hinge when it counts, `0` otherwise. -/
def rowLoss (E : SE.Idx → EReal) (L : SL.Idx → BitVec 32) (r : Fin 4096) : EReal :=
  hinge E L r * validF L r

/-- The mean hinge over the rows that count (over one row when none does). -/
def meanLoss (E : SE.Idx → EReal) (L : SL.Idx → BitVec 32) : EReal :=
  Ideal.div (∑ r : Fin 4096, rowLoss E L r) (max (∑ r : Fin 4096, validF L r) 1)

/-- A row's indicator is `0` or `1`. -/
theorem validF_cases (L : SL.Idx → BitVec 32) (r : Fin 4096) : validF L r = 0 ∨ validF L r = 1 := by
  unfold validF; split <;> simp

/-- The product with the indicator selects: the hinge at a row that counts, `0` at one that does not
    (on the extended reals `x * 0 = 0` and `x * 1 = x` for every `x`, the infinities included). -/
theorem rowLoss_eq_ite (E : SE.Idx → EReal) (L : SL.Idx → BitVec 32) (r : Fin 4096) :
    rowLoss E L r = if (∃ c, isPos L r c) ∧ (∃ c, isNeg L r c) then hinge E L r else 0 := by
  unfold rowLoss validF; split <;> simp

end Cert.Triplet

end
-- ==== Proof.Tile.lean ====
import proofs.«134814_j36069135351986_1_alg».proof.Proof.Spec

/-!
# The same loss, one 1024 × 1024 tile of the distance matrix at a time

The 4096 rows and the 4096 columns are cut into four runs of 1024. Row `p` of row run `a` is row
`1024 a + p`. Over the columns of ONE column run `b` a row has a partial hardest positive (the maximum
of the distance at that run's positives, `-1` elsewhere), a partial hardest negative, and two indicators:
whether that run holds a positive, a negative. The whole-row quantities are the maximum, the minimum
and the maxima of the four runs' partial ones.
-/

noncomputable section

open scoped BigOperators

namespace Cert.Triplet

open Idealize.ShloMosaic Idealize.ShloMosaic.ValueIdx

/-- Row (or column) `p` of run `a`. -/
def row (a : Fin 4) (p : Fin 1024) : Fin 4096 := ⟨a.val * 1024 + p.val, by omega⟩

/-- The shapes of a run of rows of the matrix and of a run of labels. -/
abbrev SEt : Shape := ⟨2, ![1024, 128]⟩
abbrev SLt : Shape := ⟨1, ![1024]⟩
/-- A column of 1024 values, one per row of a run. -/
abbrev SCt : Shape := ⟨2, ![1024, 1]⟩

/-- Run `a` of the matrix's rows. -/
def blkE (E : SE.Idx → EReal) (a : Fin 4) : SEt.Idx → EReal := fun y => E (ix2 (row a (y 0)) (y 1))

/-- Run `a` of the labels. -/
def blkL (L : SL.Idx → BitVec 32) (a : Fin 4) : SLt.Idx → BitVec 32 := fun y => L (ix1 (row a (y 0)))

/-- The farthest positive of row `p` of run `a` among the columns of run `b`. -/
def tilePos (E : SE.Idx → EReal) (L : SL.Idx → BitVec 32) (a b : Fin 4) (p : Fin 1024) : EReal :=
  Finset.univ.sup fun q : Fin 1024 =>
    if isPos L (row a p) (row b q) then dist E (row a p) (row b q) else Ideal.ofBits .f32 0xBF800000#32

/-- The nearest negative of row `p` of run `a` among the columns of run `b`. -/
def tileNeg (E : SE.Idx → EReal) (L : SL.Idx → BitVec 32) (a b : Fin 4) (p : Fin 1024) : EReal :=
  Finset.univ.inf fun q : Fin 1024 =>
    if isNeg L (row a p) (row b q) then dist E (row a p) (row b q) else Ideal.ofBits .f32 0x40400000#32

/-- Whether run `b` holds a positive of the row: `1` or `0`. -/
def tileAnyPos (L : SL.Idx → BitVec 32) (a b : Fin 4) (p : Fin 1024) : EReal :=
  if ∃ q : Fin 1024, isPos L (row a p) (row b q) then 1 else 0

/-- Whether run `b` holds a negative of the row: `1` or `0`. -/
def tileAnyNeg (L : SL.Idx → BitVec 32) (a b : Fin 4) (p : Fin 1024) : EReal :=
  if ∃ q : Fin 1024, isNeg L (row a p) (row b q) then 1 else 0

/-- The four runs' values joined by `op`, in the order the runs are visited. -/
def join4 (op : EReal → EReal → EReal) (f : Fin 4 → EReal) : EReal := op (op (op (f 0) (f 1)) (f 2)) (f 3)

end Cert.Triplet

end
-- ==== Proof.TilePayload.lean ====
import proofs.«134814_j36069135351986_1_alg».proof.Proof.Gen.KernelIdeal.Skeleton
import proofs.«134814_j36069135351986_1_alg».proof.Proof.Tile
import Idealize.ShloMosaic.Lib.ValueIdx
import Idealize.ShloMosaic.Lib.ValueLayout
import Idealize.ShloMosaic.Lib.Pipeline.Value
import Idealize.ShloMosaic.PureOps.Ideal.Laws

/-!
# The kernel's pure values, read at one row of a tile

Each value the kernel's body computes is a chain of vector operations, read here at one index at the ideal
instance (floats are extended reals). The pointwise ones are the extended reals' operations on the
elements, and a shape cast to the same shape changes nothing. The tile of distances at `(p, q)` is the
distance of row `p` of the row run and row `q` of the column run; the two masks are set exactly at the
positives and at the negatives; the maximum (minimum) over the 1024 lanes taken from `-∞` (`+∞`) is the
supremum (infimum) over the run's columns, so the four per-row results are the tile quantities of the
specification: farthest positive, nearest negative, and the two indicators "the run holds a positive / a
negative".
-/

noncomputable section

open scoped BigOperators

namespace Cert.KernelIdeal.TileValue

open Cert.KernelIdeal Cert.KernelIdeal.Gen Cert.Triplet Idealize.ShloMosaic Idealize.ShloMosaic.ValueIdx

/-! ## The pointwise values -/

/-- A shape cast to the same shape reads the operand. -/
theorem pay3_apply (v : FVec Ideal S1024x1 .f32) (y : S1024x1.Idx) : k0_pay3 (F := Ideal) v y = v y := by
  unfold k0_pay3
  rw [shapeCast_self]

theorem pay4_apply (v : FVec Ideal S1024x1 .f32) (y : S1024x1.Idx) : k0_pay4 (F := Ideal) v y = v y := by
  unfold k0_pay4
  rw [shapeCast_self]

theorem pay5_apply (v29 : IVec S1024x1024 1) (c : Ideal .f32) (v39 : FVec Ideal S1024x1024 .f32) (y : S1024x1.Idx) :
    k0_pay5 (F := Ideal) v29 c v39 y = k0_pay1 (F := Ideal) v29 c v39 y := by
  unfold k0_pay5
  rw [shapeCast_self]

theorem pay6_apply (v30 : IVec S1024x1024 1) (y : S1024x1.Idx) :
    k0_pay6 (F := Ideal) v30 y = k0_pay2 (F := Ideal) v30 y := by
  unfold k0_pay6
  rw [shapeCast_self]

/-- The running maximum: the stored value is the larger of the old one and the tile's. -/
theorem pay7_apply (v34 : FVec Ideal S1024x1 .f32) (v66 : Vec Ideal S1024x1 .f32) (y : S1024x1.Idx) :
    k0_pay7 (F := Ideal) v34 v66 y = max (v66 y) (v34 y) := by
  unfold k0_pay7
  rw [shapeCast_self]
  rfl

/-- The running minimum. -/
theorem pay8_apply (v38 : FVec Ideal S1024x1 .f32) (v71 : Vec Ideal S1024x1 .f32) (y : S1024x1.Idx) :
    k0_pay8 (F := Ideal) v38 v71 y = min (v71 y) (v38 y) := by
  unfold k0_pay8
  rw [shapeCast_self]
  rfl

theorem pay9_apply (v29 : IVec S1024x1024 1) (c : Ideal .f32) (v39 : FVec Ideal S1024x1024 .f32) (v76 : Vec Ideal S1024x1 .f32)
    (y : S1024x1.Idx) :
    k0_pay9 (F := Ideal) v29 c v39 v76 y = max (v76 y) (k0_pay1 (F := Ideal) v29 c v39 y) := by
  unfold k0_pay9
  rw [shapeCast_self]
  rfl

theorem pay10_apply (v30 : IVec S1024x1024 1) (v81 : Vec Ideal S1024x1 .f32) (y : S1024x1.Idx) :
    k0_pay10 (F := Ideal) v30 v81 y = max (v81 y) (k0_pay2 (F := Ideal) v30 y) := by
  unfold k0_pay10
  rw [shapeCast_self]
  rfl

/-- The product of the two indicators. -/
theorem pay11_apply (v73 v74 : Vec Ideal S1024x1 .f32) (y : S1024x1.Idx) :
    k0_pay11 (F := Ideal) v73 v74 y = v73 y * v74 y := by
  unfold k0_pay11
  rfl

/-- The hinge times the product of the two indicators. -/
theorem pay12_apply (v66 v67 v73 v74 : Vec Ideal S1024x1 .f32) (y : S1024x1.Idx) :
    k0_pay12 (F := Ideal) v66 v67 v73 v74 y
      = max (v66 y - v67 y + Ideal.ofBits .f32 0x3E99999A#32) 0 * (v73 y * v74 y) := by
  unfold k0_pay12 k0_pay11
  show max (v66 y - v67 y + Ideal.ofBits .f32 0x3E99999A#32) (Ideal.ofBits .f32 0x00000000#32) * (v73 y * v74 y) = _
  rw [Ideal.ofBits_zero_f32]

/-! ## The distances of a tile -/

/-- The product's left operand is read at the output's row and the contraction coordinate … -/
theorem dot_lhs_0 (j : S1024x1024.Idx) (k : dot_S1024x128_S128x1024_S1024x1024_1_0_0_1_n_n.contr.Idx) :
    (dot_S1024x128_S128x1024_S1024x1024_1_0_0_1_n_n.lhsIdx j k 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem dot_lhs_1 (j : S1024x1024.Idx) (k : dot_S1024x128_S128x1024_S1024x1024_1_0_0_1_n_n.contr.Idx) :
    (dot_S1024x128_S128x1024_S1024x1024_1_0_0_1_n_n.lhsIdx j k 1).val = (k ⟨0, by decide⟩).val :=
  dot_S1024x128_S128x1024_S1024x1024_1_0_0_1_n_n.lhsIdx_val_of_single rfl j k
/-- … the right one at the contraction coordinate and the output's column. -/
theorem dot_rhs_0 (j : S1024x1024.Idx) (k : dot_S1024x128_S128x1024_S1024x1024_1_0_0_1_n_n.contr.Idx) :
    (dot_S1024x128_S128x1024_S1024x1024_1_0_0_1_n_n.rhsIdx j k 0).val = (k ⟨0, by decide⟩).val :=
  dot_S1024x128_S128x1024_S1024x1024_1_0_0_1_n_n.rhsIdx_val_of_single rfl j k
theorem dot_rhs_1 (j : S1024x1024.Idx) (k : dot_S1024x128_S128x1024_S1024x1024_1_0_0_1_n_n.contr.Idx) :
    (dot_S1024x128_S128x1024_S1024x1024_1_0_0_1_n_n.rhsIdx j k 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The tile's value at `(p, q)` is the distance of row `p` of the row run and row `q` of the column run:
    `1` minus the sum over the 128 coordinates of the products (the accumulator is zero, the narrowing
    of the operands changes nothing on extended reals, and the second operand is read transposed). -/
theorem pay13_apply (E : SE.Idx → EReal) (a b : Fin 4) (p q : Fin 1024) :
    k0_pay13 (F := Ideal) (blkE E a : Vec Ideal S1024x128 .f32) (blkE E b : Vec Ideal S1024x128 .f32) (ix2 p q)
      = Triplet.dist E (row a p) (row b q) := by
  unfold k0_pay13 Triplet.dist
  rw [shapeCast_self, shapeCast_self]
  show Ideal.ofBits .f32 0x3F800000#32
      - FloatOps.matmul dot_S1024x128_S128x1024_S1024x1024_1_0_0_1_n_n none
          (truncf .bf16 (blkE E a : FVec Ideal S1024x128 .f32) bitsLt_bf16_f32)
          (transpose S128x1024 [1, 0] (truncf .bf16 (blkE E b : FVec Ideal S1024x128 .f32) bitsLt_bf16_f32)
            transposes_S1024x128_p1_0_S128x1024)
          (constant S1024x1024 .f32 0x00000000#32) (ix2 p q) = _
  congr 1
  rw [Ideal.matmul_constant_zero_apply,
    ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun c => Fin.ext (by
      match c with
      | ⟨0, _⟩ => exact dot_lhs_0 _ _
      | ⟨1, _⟩ => exact (dot_lhs_1 _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun c => Fin.ext (by
      match c with
      | ⟨0, _⟩ => exact (dot_rhs_0 _ _).trans hk
      | ⟨1, _⟩ => exact dot_rhs_1 _ _)
  rw [el, er, transpose_ix2_apply]
  rfl

/-! ## The label conditions of a tile -/

/-- A column broadcast along the rows' lanes reads the column at the row. -/
theorem bcol_apply {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ =>
    show p.val = if (1024 : Nat) = 1 then 0 else p.val
    rw [if_neg (by decide)]
  | ⟨1, _⟩ => rfl

/-- A vector viewed as a column reads its element at the row. -/
theorem vcol_apply {α : Type} (v : S1024.Idx → α) (p : Fin 1024) (z : Fin 1) :
    shapeCast S1024x1 v shapeCasts_S1024_S1024x1 (ix2 p z) = v (ix1 p) :=
  shapeCast_apply v shapeCasts_S1024_S1024x1 (ix2 p z) (ix1 p) (by
    have hz : z.val = 0 := by omega
    rw [Shape.rowMajor_val_one, Shape.rowMajor_val_two]
    show p.val = p.val * 1 + z.val
    omega)

/-- The bit "the labels of row `p` of the row run and of row `q` of the column run agree". -/
theorem pay14_apply (L : SL.Idx → BitVec 32) (a b : Fin 4) (p q : Fin 1024) :
    k0_pay14 (F := Ideal) (blkL L a : Vec Ideal S1024 .i32) (blkL L b : Vec Ideal S1024 .i32) (ix2 p q)
      = IntOp.cmpi .eq (L (ix1 (row a p))) (L (ix1 (row b q))) := by
  unfold k0_pay14
  show IntOp.cmpi .eq
      (broadcastTo S1024x1024 (shapeCast S1024x1 (blkL L a : IVec S1024 32) shapeCasts_S1024_S1024x1)
        broadcasts_S1024x1_S1024x1024 (ix2 p q))
      (broadcastTo S1024x1024 (shapeCast S1x1024 (blkL L b : IVec S1024 32) shapeCasts_S1024_S1x1024)
        broadcasts_S1x1024_S1024x1024 (ix2 p q)) = _
  rw [bcol_apply, vcol_apply, broadcastTo_1b_ab_apply, shapeCast_a_1a_apply]
  rfl

/-- The word of a row's number: `1024 a + p` computed on 32 bits does not wrap. -/
theorem word_row (a : Fin 4) (p : Fin 1024) (n : Nat) (hn : n = a.val) :
    IntOp.addi (Scalar.muli (BitVec.ofNat 32 n) 1024#32) (BitVec.ofNat 32 p.val) = BitVec.ofNat 32 (row a p).val := by
  subst hn
  apply BitVec.eq_of_toNat_eq
  show ((BitVec.ofNat 32 a.val * 1024#32) + BitVec.ofNat 32 p.val).toNat = (BitVec.ofNat 32 (a.val * 1024 + p.val)).toNat
  simp only [BitVec.toNat_add, BitVec.toNat_mul, BitVec.toNat_ofNat]
  have := a.isLt
  have := p.isLt
  omega

/-- Two rows' words agree exactly when the rows do. -/
theorem ofNat_row_inj (r c : Fin 4096) : BitVec.ofNat 32 r.val = BitVec.ofNat 32 c.val ↔ r = c := by
  constructor
  · intro h
    have h' := congrArg BitVec.toNat h
    simp only [BitVec.toNat_ofNat] at h'
    have := r.isLt
    have := c.isLt
    exact Fin.ext (by omega)
  · rintro rfl
    rfl

/-- A bit's complement is set exactly when the bit is not. -/
theorem xori_one_eq_one (c : BitVec 1) : IntOp.xori c 1#1 = 1#1 ↔ ¬c = 1#1 := by
  revert c; decide

/-- The kernel's positive mask: set exactly at the positives of the row among the run's columns. -/
theorem pay15_eq_one (L : SL.Idx → BitVec 32) (a b : Fin 4) (i : grid0.Coords) (ha : (i 0).val = a.val)
    (hb : (i 1).val = b.val) (p q : Fin 1024) :
    k0_pay15 (F := Ideal) i (blkL L a : Vec Ideal S1024 .i32) (blkL L b : Vec Ideal S1024 .i32) (ix2 p q) = 1#1
      ↔ isPos L (row a p) (row b q) := by
  unfold k0_pay15
  show IntOp.andi (k0_pay14 (F := Ideal) (blkL L a : Vec Ideal S1024 .i32) (blkL L b : Vec Ideal S1024 .i32) (ix2 p q))
      (IntOp.xori (IntOp.cmpi .eq
        (broadcastTo S1024x1024 (addi (broadcast S1024x1 (Scalar.muli (BitVec.ofNat 32 (i 0).val) 1024#32))
          (iota .tc S1024x1 32 [0] iota_S1024x1_d0_w32)) broadcasts_S1024x1_S1024x1024 (ix2 p q))
        (broadcastTo S1024x1024 (addi (broadcast S1x1024 (Scalar.muli (BitVec.ofNat 32 (i 1).val) 1024#32))
          (iota .tc S1x1024 32 [1] iota_S1x1024_d1_w32)) broadcasts_S1x1024_S1024x1024 (ix2 p q))) 1#1) = 1#1 ↔ _
  rw [bcol_apply, broadcastTo_1b_ab_apply]
  show IntOp.andi _ (IntOp.xori (IntOp.cmpi .eq
        (IntOp.addi (Scalar.muli (BitVec.ofNat 32 (i 0).val) 1024#32)
          (iota .tc S1024x1 32 [0] iota_S1024x1_d0_w32 (ix2 p (0 : Fin 1))))
        (IntOp.addi (Scalar.muli (BitVec.ofNat 32 (i 1).val) 1024#32)
          (iota .tc S1x1024 32 [1] iota_S1x1024_d1_w32 (ix2 (0 : Fin 1) q)))) 1#1) = 1#1 ↔ _
  rw [iota_single_apply, iota_single_apply]
  show IntOp.andi _ (IntOp.xori (IntOp.cmpi .eq
        (IntOp.addi (Scalar.muli (BitVec.ofNat 32 (i 0).val) 1024#32) (BitVec.ofNat 32 p.val))
        (IntOp.addi (Scalar.muli (BitVec.ofNat 32 (i 1).val) 1024#32) (BitVec.ofNat 32 q.val))) 1#1) = 1#1 ↔ _
  rw [word_row a p _ ha, word_row b q _ hb, IntOp.andi_eq_one, xori_one_eq_one, IntOp.cmpi_eq, ofNat_row_inj,
    pay14_apply, IntOp.cmpi_eq]
  rfl

/-- The kernel's negative mask: set exactly at the negatives of the row among the run's columns. -/
theorem pay16_eq_one (L : SL.Idx → BitVec 32) (a b : Fin 4) (p q : Fin 1024) :
    k0_pay16 (F := Ideal) (blkL L a : Vec Ideal S1024 .i32) (blkL L b : Vec Ideal S1024 .i32) (ix2 p q) = 1#1
      ↔ isNeg L (row a p) (row b q) := by
  unfold k0_pay16
  show IntOp.xori (k0_pay14 (F := Ideal) (blkL L a : Vec Ideal S1024 .i32) (blkL L b : Vec Ideal S1024 .i32) (ix2 p q)) 1#1 = 1#1 ↔ _
  rw [xori_one_eq_one, pay14_apply, IntOp.cmpi_eq]
  rfl

/-! ## The lane reductions of a tile -/

/-- The words of the two infinities and of one. -/
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
theorem ofBits_one_f32 : Ideal.ofBits .f32 0x3F800000#32 = 1 := by
  simp [Ideal.ofBits, Ideal.ieee]
  rw [← EReal.coe_mul, ← EReal.coe_one]
  congr 1
  norm_num

/-- A maximum taken from `-∞` over all coordinates is the supremum, a minimum from `+∞` the infimum. -/
theorem fold_max_ofBits (f : Fin 1024 → EReal) :
    (Finset.univ : Finset (Fin 1024)).fold max (Ideal.ofBits .f32 0xFF800000#32) f = Finset.univ.sup f := by
  rw [ofBits_neg_inf_f32]; rfl
theorem fold_min_ofBits (f : Fin 1024 → EReal) :
    (Finset.univ : Finset (Fin 1024)).fold min (Ideal.ofBits .f32 0x7F800000#32) f = Finset.univ.inf f := by
  rw [ofBits_pos_inf_f32]; rfl

/-- The reduced index `p` with the lane `q` put back is `(p, q)`. -/
theorem lift_apply (p q : Fin 1024) : reduces_S1024x1024_S1024.lift (ix1 p) q = ix2 p q :=
  funext fun c => Fin.ext (by
    match c with
    | ⟨0, _⟩ => rfl
    | ⟨1, _⟩ => rfl)

/-- A minimum over one axis, read at the ideal instance: the fold of `min` from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The maximum over a row's 1024 lanes is the supremum over the columns. -/
theorem rowmax_apply (v : FVec Ideal S1024x1024 .f32) (p : Fin 1024) :
    multiReduction .maximumf [1] S1024 v 0xFF800000#32 reduces_S1024x1024_S1024 (.inl rfl) rfl (ix1 p)
      = Finset.univ.sup fun q : Fin 1024 => v (ix2 p q) := by
  refine (Ideal.multiReduction_maximumf_single v _ reduces_S1024x1024_S1024 _ _ (ix1 p)).trans ?_
  exact (fold_max_ofBits _).trans (congrArg _ (funext fun q => congrArg v (lift_apply p q)))

/-- The minimum over a row's 1024 lanes is the infimum over the columns. -/
theorem rowmin_apply (v : FVec Ideal S1024x1024 .f32) (p : Fin 1024) :
    multiReduction .minimumf [1] S1024 v 0x7F800000#32 reduces_S1024x1024_S1024 (.inl rfl) rfl (ix1 p)
      = Finset.univ.inf fun q : Fin 1024 => v (ix2 p q) := by
  refine (multiReduction_minimumf_single v _ reduces_S1024x1024_S1024 _ _ (ix1 p)).trans ?_
  exact (fold_min_ofBits _).trans (congrArg _ (funext fun q => congrArg v (lift_apply p q)))

/-- A select on a mask whose bit is decided by a condition is the `if` on the condition. -/
theorem select_of_iff {α : Type} (c : BitVec 1) (P : Prop) [Decidable P] (h : c = 1#1 ↔ P) (x y : α) :
    Scalar.select c x y = if P then x else y := by
  unfold Scalar.select
  exact if_congr h rfl rfl

/-- The tile's farthest positive of row `p`. -/
theorem pay17_apply (E : SE.Idx → EReal) (L : SL.Idx → BitVec 32) (a b : Fin 4) (i : grid0.Coords)
    (ha : (i 0).val = a.val) (hb : (i 1).val = b.val) (p : Fin 1024) :
    k0_pay17 (F := Ideal) i (blkE E a : Vec Ideal S1024x128 .f32) (blkE E b : Vec Ideal S1024x128 .f32)
        (blkL L a : Vec Ideal S1024 .i32) (blkL L b : Vec Ideal S1024 .i32) (ix2 p (0 : Fin 1))
      = tilePos E L a b p := by
  unfold k0_pay17 tilePos
  rw [vcol_apply, rowmax_apply]
  refine congrArg _ (funext fun q => ?_)
  rw [select_apply, select_of_iff _ _ (pay15_eq_one L a b i ha hb p q), pay13_apply]
  rfl

/-- The tile's nearest negative of row `p`. -/
theorem pay18_apply (E : SE.Idx → EReal) (L : SL.Idx → BitVec 32) (a b : Fin 4) (p : Fin 1024) :
    k0_pay18 (F := Ideal) (blkE E a : Vec Ideal S1024x128 .f32) (blkE E b : Vec Ideal S1024x128 .f32)
        (blkL L a : Vec Ideal S1024 .i32) (blkL L b : Vec Ideal S1024 .i32) (ix2 p (0 : Fin 1))
      = tileNeg E L a b p := by
  unfold k0_pay18 tileNeg
  rw [vcol_apply, rowmin_apply]
  refine congrArg _ (funext fun q => ?_)
  rw [select_apply, select_of_iff _ _ (pay16_eq_one L a b p q), pay13_apply]
  rfl

/-! ## The two indicators of a tile -/

/-- The converted bit of a decided condition is the condition's indicator. -/
theorem sitofp_bit (P : Prop) [Decidable P] :
    FloatOps.sitofp (F := Ideal) .f32 ((BitVec.ofBool (decide P)).setWidth 32) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 from by decide]
    simp
  · rw [if_neg h, decide_eq_false h]
    show (((BitVec.setWidth 32 (BitVec.ofBool false)).toInt : ℝ) : EReal) = 0
    rw [show (BitVec.setWidth 32 (BitVec.ofBool false)).toInt = 0 from by decide]
    simp

/-- "Some lane of the row is set in the mask", as the kernel computes it: the maximum over the lanes of `1` at the
    set lanes and `0` elsewhere exceeds `0` exactly when some lane is set; the comparison's bit, widened and
    converted, is the indicator `1` or `0`. -/
theorem any_apply (m : IVec S1024x1024 1) (P : Fin 1024 → Prop) [DecidablePred P] (p : Fin 1024)
    (hm : ∀ q, m (ix2 p q) = 1#1 ↔ P q) (z : Fin 1) {d : Decidable (∃ q, P q)} :
    (sitofp .f32 (extui 32 (shapeCast S1024x1 (cmpf .ogt
        (multiReduction .maximumf [1] S1024
          (select m (broadcast S1024x1024 (Scalar.ofBits (F := Ideal) .f32 0x3F800000#32))
            (broadcast S1024x1024 (Scalar.ofBits (F := Ideal) .f32 0x00000000#32)))
          0xFF800000#32 reduces_S1024x1024_S1024 (.inl rfl) rfl)
        (broadcast S1024 (Scalar.ofBits (F := Ideal) .f32 0x00000000#32))) shapeCasts_S1024_S1024x1) natLt_1_32)
      : FVec Ideal S1024x1 .f32) (ix2 p z)
      = @ite EReal (∃ q, P q) d 1 0 := by
  rw [sitofp_apply, extui_apply, vcol_apply, cmpf_apply, rowmax_apply]
  show FloatOps.sitofp (F := Ideal) .f32 ((BitVec.ofBool (decide (Ideal.ofBits .f32 0x00000000#32
      < Finset.univ.sup fun q : Fin 1024 => Scalar.select (m (ix2 p q)) (Ideal.ofBits .f32 0x3F800000#32)
          (Ideal.ofBits .f32 0x00000000#32)))).setWidth 32) = _
  rw [sitofp_bit, Ideal.ofBits_zero_f32, ofBits_one_f32]
  refine if_congr ?_ rfl rfl
  rw [Finset.lt_sup_iff]
  constructor
  · rintro ⟨q, -, hq⟩
    refine ⟨q, ?_⟩
    by_contra hP
    rw [select_of_iff _ _ (hm q), if_neg hP] at hq
    exact lt_irrefl _ hq
  · rintro ⟨q, hq⟩
    refine ⟨q, Finset.mem_univ q, ?_⟩
    rw [select_of_iff _ _ (hm q), if_pos hq]
    exact zero_lt_one

/-- Whether the column run holds a positive of row `p`. -/
theorem pay1_apply (L : SL.Idx → BitVec 32) (a b : Fin 4) (i : grid0.Coords)
    (ha : (i 0).val = a.val) (hb : (i 1).val = b.val) (p : Fin 1024) :
    k0_pay1 (F := Ideal) (k0_pay15 (F := Ideal) i (blkL L a : Vec Ideal S1024 .i32) (blkL L b : Vec Ideal S1024 .i32))
        (Scalar.ofBits .f32 0x00000000#32) (k0_pay19 (F := Ideal)) (ix2 p (0 : Fin 1))
      = tileAnyPos L a b p := by
  unfold k0_pay1 k0_pay19 tileAnyPos
  exact any_apply _ (fun q => isPos L (row a p) (row b q)) p (fun q => pay15_eq_one L a b i ha hb p q) 0

/-- Whether the column run holds a negative of row `p`. -/
theorem pay2_apply (L : SL.Idx → BitVec 32) (a b : Fin 4) (p : Fin 1024) :
    k0_pay2 (F := Ideal) (k0_pay16 (F := Ideal) (blkL L a : Vec Ideal S1024 .i32) (blkL L b : Vec Ideal S1024 .i32))
        (ix2 p (0 : Fin 1))
      = tileAnyNeg L a b p := by
  unfold k0_pay2 tileAnyNeg
  exact any_apply _ (fun q => isNeg L (row a p) (row b q)) p (fun q => pay16_eq_one L a b p q) 0

end Cert.KernelIdeal.TileValue

end
-- ==== Proof.TileLaws.lean ====
import proofs.«134814_j36069135351986_1_alg».proof.Proof.Tile

/-!
# The whole-row quantities are the joins of the four runs' partial ones

Every column `c` below 4096 is column `c % 1024` of run `c / 1024`, so a maximum over all columns is the
maximum of the four runs' maxima, a minimum the minimum of the four minima, and "some column is a
positive" is "some run holds a positive". The indicators are `0` or `1`; the maximum of such is the
indicator of the disjunction and their product the indicator of the conjunction.
-/

noncomputable section

open scoped BigOperators

namespace Cert.Triplet

open Idealize.ShloMosaic Idealize.ShloMosaic.ValueIdx

/-- Every column `c` below 4096 is column `c % 1024` of run `c / 1024`. -/
theorem row_surj (c : Fin 4096) : ∃ (b : Fin 4) (q : Fin 1024), row b q = c :=
  ⟨⟨c.val / 1024, by omega⟩, ⟨c.val % 1024, Nat.mod_lt _ (by norm_num)⟩, Fin.ext (by
    show c.val / 1024 * 1024 + c.val % 1024 = c.val
    omega)⟩

/-- Each of the four values is below their join by `max`. -/
theorem le_join4_max (f : Fin 4 → EReal) (b : Fin 4) : f b ≤ join4 max f := by
  unfold join4
  fin_cases b
  · exact le_trans (le_trans (le_max_left _ _) (le_max_left _ _)) (le_max_left _ _)
  · exact le_trans (le_trans (le_max_right _ _) (le_max_left _ _)) (le_max_left _ _)
  · exact le_trans (le_max_right _ _) (le_max_left _ _)
  · exact le_max_right _ _

/-- Their join by `min` is below each of the four values. -/
theorem join4_min_le (f : Fin 4 → EReal) (b : Fin 4) : join4 min f ≤ f b := by
  unfold join4
  fin_cases b
  · exact le_trans (min_le_left _ _) (le_trans (min_le_left _ _) (min_le_left _ _))
  · exact le_trans (min_le_left _ _) (le_trans (min_le_left _ _) (min_le_right _ _))
  · exact le_trans (min_le_left _ _) (min_le_right _ _)
  · exact min_le_right _ _

/-- A maximum over all 4096 columns is the join of the four runs' maxima. -/
theorem sup_row (g : Fin 4096 → EReal) :
    Finset.univ.sup g = join4 max (fun b => Finset.univ.sup fun q : Fin 1024 => g (row b q)) := by
  apply le_antisymm
  · refine Finset.sup_le fun c _ => ?_
    obtain ⟨b, q, rfl⟩ := row_surj c
    exact le_trans (Finset.le_sup (f := fun q : Fin 1024 => g (row b q)) (Finset.mem_univ q))
      (le_join4_max (fun b => Finset.univ.sup fun q : Fin 1024 => g (row b q)) b)
  · have h : ∀ b : Fin 4, (Finset.univ.sup fun q : Fin 1024 => g (row b q)) ≤ Finset.univ.sup g :=
      fun b => Finset.sup_le fun q _ => Finset.le_sup (f := g) (Finset.mem_univ (row b q))
    unfold join4
    exact max_le (max_le (max_le (h 0) (h 1)) (h 2)) (h 3)

/-- A minimum over all 4096 columns is the join of the four runs' minima. -/
theorem inf_row (g : Fin 4096 → EReal) :
    Finset.univ.inf g = join4 min (fun b => Finset.univ.inf fun q : Fin 1024 => g (row b q)) := by
  apply le_antisymm
  · have h : ∀ b : Fin 4, Finset.univ.inf g ≤ (Finset.univ.inf fun q : Fin 1024 => g (row b q)) :=
      fun b => Finset.le_inf fun q _ => Finset.inf_le (f := g) (Finset.mem_univ (row b q))
    unfold join4
    exact le_min (le_min (le_min (h 0) (h 1)) (h 2)) (h 3)
  · refine Finset.le_inf fun c _ => ?_
    obtain ⟨b, q, rfl⟩ := row_surj c
    exact le_trans (join4_min_le (fun b => Finset.univ.inf fun q : Fin 1024 => g (row b q)) b)
      (Finset.inf_le (f := fun q : Fin 1024 => g (row b q)) (Finset.mem_univ q))

/-- The farthest positive of a row is the largest of the four runs' farthest positives. -/
theorem hardPos_row (E : SE.Idx → EReal) (L : SL.Idx → BitVec 32) (a : Fin 4) (p : Fin 1024) :
    hardPos E L (row a p) = join4 max (fun b => tilePos E L a b p) := by
  unfold hardPos tilePos
  exact sup_row _

/-- The nearest negative of a row is the smallest of the four runs' nearest negatives. -/
theorem hardNeg_row (E : SE.Idx → EReal) (L : SL.Idx → BitVec 32) (a : Fin 4) (p : Fin 1024) :
    hardNeg E L (row a p) = join4 min (fun b => tileNeg E L a b p) := by
  unfold hardNeg tileNeg
  exact inf_row _

/-- The maximum of two indicators is the indicator of the disjunction. -/
theorem max_ind (P Q : Prop) [Decidable P] [Decidable Q] :
    max (if P then (1 : EReal) else 0) (if Q then (1 : EReal) else 0) = if P ∨ Q then (1 : EReal) else 0 := by
  by_cases hP : P <;> by_cases hQ : Q <;> simp [hP, hQ]

/-- The join of four indicators is the indicator of "one of the four holds". -/
theorem join4_max_ind (P : Fin 4 → Prop) [DecidablePred P] :
    join4 max (fun b => if P b then (1 : EReal) else 0) = if ∃ b, P b then (1 : EReal) else 0 := by
  unfold join4
  rw [max_ind, max_ind, max_ind]
  refine if_congr ?_ rfl rfl
  constructor
  · rintro (((h | h) | h) | h)
    exacts [⟨0, h⟩, ⟨1, h⟩, ⟨2, h⟩, ⟨3, h⟩]
  · rintro ⟨b, h⟩
    fin_cases b
    · exact Or.inl (Or.inl (Or.inl h))
    · exact Or.inl (Or.inl (Or.inr h))
    · exact Or.inl (Or.inr h)
    · exact Or.inr h

/-- Some column has the property exactly when some run has a column with it. -/
theorem exists_row (P : Fin 4096 → Prop) : (∃ c, P c) ↔ ∃ b : Fin 4, ∃ q : Fin 1024, P (row b q) := by
  constructor
  · rintro ⟨c, h⟩
    obtain ⟨b, q, rfl⟩ := row_surj c
    exact ⟨b, q, h⟩
  · rintro ⟨b, q, h⟩
    exact ⟨row b q, h⟩

/-- A row counts exactly when some run holds a positive of it and some run a negative. -/
theorem validF_row (L : SL.Idx → BitVec 32) (a : Fin 4) (p : Fin 1024) :
    validF L (row a p) = join4 max (fun b => tileAnyPos L a b p) * join4 max (fun b => tileAnyNeg L a b p) := by
  unfold validF tileAnyPos tileAnyNeg
  rw [join4_max_ind (fun b => ∃ q : Fin 1024, isPos L (row a p) (row b q)),
    join4_max_ind (fun b => ∃ q : Fin 1024, isNeg L (row a p) (row b q))]
  have eP : (∃ c, isPos L (row a p) c) ↔ ∃ b : Fin 4, ∃ q : Fin 1024, isPos L (row a p) (row b q) :=
    exists_row (fun c => isPos L (row a p) c)
  have eN : (∃ c, isNeg L (row a p) c) ↔ ∃ b : Fin 4, ∃ q : Fin 1024, isNeg L (row a p) (row b q) :=
    exists_row (fun c => isNeg L (row a p) c)
  by_cases hP : ∃ c, isPos L (row a p) c
  · by_cases hN : ∃ c, isNeg L (row a p) c
    · rw [if_pos ⟨hP, hN⟩, if_pos (eP.mp hP), if_pos (eN.mp hN), one_mul]
    · rw [if_neg (fun h => hN h.2), if_neg (fun h => hN (eN.mpr h)), mul_zero]
  · rw [if_neg (fun h => hP h.1), if_neg (fun h => hP (eP.mpr h)), zero_mul]

end Cert.Triplet

end
-- ==== Proof.KValue.lean ====
import proofs.«134814_j36069135351986_1_alg».proof.Proof.FrameKI.Data
import proofs.«134814_j36069135351986_1_alg».proof.Proof.TilePayload
import proofs.«134814_j36069135351986_1_alg».proof.Proof.TileLaws

/-!
# What the two output arrays end holding

The grid's point `t = 4 a + b` reads row run `a` and column run `b` of the normalised matrix and of the labels.
After the point the four scratch columns hold, at row `p`, the joins over the column runs `0 … b` of the tile
quantities of row `1024 a + p`; at `b = 3` these are the whole-row quantities, and what is stored into the two
output blocks is the row's loss and the row's indicator. Row `r` of each output array is written back by the point
`4 (r / 1024) + 3` and by no other, so the arrays end holding the row losses and the row indicators.
-/

set_option maxRecDepth 16384

noncomputable section

open scoped BigOperators

namespace Cert.KernelIdeal.KValue

open Cert.KernelIdeal Cert.KernelIdeal.Gen Cert.KernelIdeal.Hand Cert.Triplet
open Cert.KernelIdeal.TileValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The normalised matrix as the region finds it. -/
def En : Triplet.SE.Idx → EReal := V m c main_v4
/-- The labels. -/
def Lb : Triplet.SL.Idx → BitVec 32 := V m c main_arg1

/-! ## The blocks a point reads -/

/-- At every point `t` of the grid the index maps name row run `t / 4` and column run `t % 4`, and these are the
    point's two coordinates. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 1) = t.val / 4 ∧ win0_3.index t (0 : Fin 1) = t.val % 4
    ∧ win0_4.index t (0 : Fin 2) = t.val / 4 ∧ win0_4.index t (1 : Fin 2) = 0
    ∧ win0_5.index t (0 : Fin 2) = t.val / 4 ∧ win0_5.index t (1 : Fin 2) = 0
    ∧ ((grid0.coords t) 0).val = t.val / 4 ∧ ((grid0.coords t) 1).val = t.val % 4 :=
  (by decide +kernel : ∀ t : Fin grid0.N, _)

/-- The first window's block at point `t` is row run `t / 4` of the matrix. -/
theorem iblk0_eq (t : Fin cfg0.N) (a : Fin 4) (ha : a.val = t.val / 4) :
    (iblk m c 0 t : Vec Ideal S1024x128 .f32) = blkE (En m c) a := by
  obtain ⟨e0, e1, -⟩ := idx_facts t
  funext y
  unfold iblk
  rw [View.read_apply]
  show V m c main_v4 (((cfg0.win 0).blk t).view.emb y) = V m c main_v4 (ix2 (row a (y 0)) (y 1))
  congr 1
  funext ax
  apply Fin.ext
  match ax with
  | ⟨0, _⟩ =>
    show win0_0.index t (0 : Fin 2) * 1024 + 1 * (y 0).val = a.val * 1024 + (y 0).val
    rw [e0, ha]; omega
  | ⟨1, _⟩ =>
    show win0_0.index t (1 : Fin 2) * 128 + 1 * (y 1).val = (y 1).val
    rw [e1]; omega

/-- The second window's block is column run `t % 4` of the matrix. -/
theorem iblk1_eq (t : Fin cfg0.N) (b : Fin 4) (hb : b.val = t.val % 4) :
    (iblk m c 1 t : Vec Ideal S1024x128 .f32) = blkE (En m c) b := by
  obtain ⟨-, -, e0, e1, -⟩ := idx_facts t
  funext y
  unfold iblk
  rw [View.read_apply]
  show V m c main_v4 (((cfg0.win 1).blk t).view.emb y) = V m c main_v4 (ix2 (row b (y 0)) (y 1))
  congr 1
  funext ax
  apply Fin.ext
  match ax with
  | ⟨0, _⟩ =>
    show win0_1.index t (0 : Fin 2) * 1024 + 1 * (y 0).val = b.val * 1024 + (y 0).val
    rw [e0, hb]; omega
  | ⟨1, _⟩ =>
    show win0_1.index t (1 : Fin 2) * 128 + 1 * (y 1).val = (y 1).val
    rw [e1]; omega

/-- The third window's block is row run `t / 4` of the labels. -/
theorem iblk2_eq (t : Fin cfg0.N) (a : Fin 4) (ha : a.val = t.val / 4) :
    (iblk m c 2 t : Vec Ideal S1024 .i32) = blkL (Lb m c) a := by
  obtain ⟨-, -, -, -, e0, -⟩ := idx_facts t
  funext y
  unfold iblk
  rw [View.read_apply]
  show V m c main_arg1 (((cfg0.win 2).blk t).view.emb y) = V m c main_arg1 (ix1 (row a (y 0)))
  congr 1
  funext ax
  apply Fin.ext
  match ax with
  | ⟨0, _⟩ =>
    show win0_2.index t (0 : Fin 1) * 1024 + 1 * (y 0).val = a.val * 1024 + (y 0).val
    rw [e0, ha]; omega

/-- The fourth window's block is column run `t % 4` of the labels. -/
theorem iblk3_eq (t : Fin cfg0.N) (b : Fin 4) (hb : b.val = t.val % 4) :
    (iblk m c 3 t : Vec Ideal S1024 .i32) = blkL (Lb m c) b := by
  obtain ⟨-, -, -, -, -, e0, -⟩ := idx_facts t
  funext y
  unfold iblk
  rw [View.read_apply]
  show V m c main_arg1 (((cfg0.win 3).blk t).view.emb y) = V m c main_arg1 (ix1 (row b (y 0)))
  congr 1
  funext ax
  apply Fin.ext
  match ax with
  | ⟨0, _⟩ =>
    show win0_3.index t (0 : Fin 1) * 1024 + 1 * (y 0).val = b.val * 1024 + (y 0).val
    rw [e0, hb]; omega

/-! ## The scratch columns after a point -/

/-- The scratch columns after a point of column run `0`, over the runs of the matrix and of the labels. -/
theorem colsAt_reset' (t : Fin cfg0.N) (a b : Fin 4) (ha : a.val = t.val / 4) (hb : b.val = t.val % 4)
    (h : t.val % 4 = 0) :
    colsAt m c t.val t.isLt
      = colsReset (grid0.coords t) (blkE (En m c) a : Vec Ideal S1024x128 .f32) (blkE (En m c) b : Vec Ideal S1024x128 .f32)
          (blkL (Lb m c) a : Vec Ideal S1024 .i32) (blkL (Lb m c) b : Vec Ideal S1024 .i32) := by
  rw [colsAt_reset m c t h]
  exact congr (congr (congr (congrArg (colsReset (F := Ideal) (grid0.coords t)) (iblk0_eq m c t a ha)) (iblk1_eq m c t b hb))
    (iblk2_eq m c t a ha)) (iblk3_eq m c t b hb)

/-- The scratch columns after a point of a later column run: the tile joined into what the point before left. -/
theorem colsAt_join' (t : Fin cfg0.N) (a b : Fin 4) (ha : a.val = t.val / 4) (hb : b.val = t.val % 4)
    (h : ¬ t.val % 4 = 0) :
    colsAt m c t.val t.isLt
      = colsJoin (grid0.coords t) (blkE (En m c) a : Vec Ideal S1024x128 .f32) (blkE (En m c) b : Vec Ideal S1024x128 .f32)
          (blkL (Lb m c) a : Vec Ideal S1024 .i32) (blkL (Lb m c) b : Vec Ideal S1024 .i32)
          (colsAt m c (t.val - 1) (Nat.lt_of_le_of_lt (Nat.sub_le _ _) t.isLt)) := by
  rw [colsAt_join m c t h]
  exact congrFun (congr (congr (congr (congrArg (colsJoin (F := Ideal) (grid0.coords t)) (iblk0_eq m c t a ha)) (iblk1_eq m c t b hb))
    (iblk2_eq m c t a ha)) (iblk3_eq m c t b hb)) _

/-- The join of the values of the runs `0 … b`, in the order the runs are visited. -/
def acc4 (op : EReal → EReal → EReal) (f : Fin 4 → EReal) : Fin 4 → EReal
  | 0 => f 0
  | 1 => op (f 0) (f 1)
  | 2 => op (op (f 0) (f 1)) (f 2)
  | 3 => op (op (op (f 0) (f 1)) (f 2)) (f 3)
  | ⟨_ + 4, h⟩ => absurd h (Nat.not_lt.2 (Nat.le_add_left _ _))

/-- One more run joined. -/
theorem acc4_succ (op : EReal → EReal → EReal) (f : Fin 4 → EReal) (n : ℕ) (h : n + 1 < 4) :
    acc4 op f ⟨n + 1, h⟩ = op (acc4 op f ⟨n, Nat.lt_of_succ_lt h⟩) (f ⟨n + 1, h⟩) := by
  match n, h with
  | 0, _ => rfl
  | 1, _ => rfl
  | 2, _ => rfl
  | n + 3, h => exact absurd h (by omega)

/-- All four runs joined. -/
theorem acc4_last (op : EReal → EReal → EReal) (f : Fin 4 → EReal) (h : 3 < 4) : acc4 op f ⟨3, h⟩ = join4 op f := rfl

/-- The scratch columns after point `4 a + n`, at row `p`: the joins over the column runs `0 … n` of the tile's
    farthest positive, nearest negative and the two indicators of row `p` of row run `a`. -/
theorem cols_apply (a : Fin 4) (p : Fin 1024) : ∀ (n : ℕ) (hn : n < 4) (t : Fin cfg0.N), t.val = 4 * a.val + n →
    (colsAt m c t.val t.isLt).1 (ix2 p (0 : Fin 1)) = acc4 max (fun b' => tilePos (En m c) (Lb m c) a b' p) ⟨n, hn⟩
    ∧ (colsAt m c t.val t.isLt).2.1 (ix2 p (0 : Fin 1)) = acc4 min (fun b' => tileNeg (En m c) (Lb m c) a b' p) ⟨n, hn⟩
    ∧ (colsAt m c t.val t.isLt).2.2.1 (ix2 p (0 : Fin 1)) = acc4 max (fun b' => tileAnyPos (Lb m c) a b' p) ⟨n, hn⟩
    ∧ (colsAt m c t.val t.isLt).2.2.2 (ix2 p (0 : Fin 1)) = acc4 max (fun b' => tileAnyNeg (Lb m c) a b' p) ⟨n, hn⟩
  | 0, hn, t, ht => by
    obtain ⟨-, -, -, -, -, -, -, -, -, -, g0, g1⟩ := idx_facts t
    have ha : a.val = t.val / 4 := by omega
    have hb : (⟨0, hn⟩ : Fin 4).val = t.val % 4 := by show 0 = t.val % 4; omega
    have hi0 : ((grid0.coords t) 0).val = a.val := by rw [g0]; omega
    have hi1 : ((grid0.coords t) 1).val = (⟨0, hn⟩ : Fin 4).val := by rw [g1]; exact hb.symm
    rw [colsAt_reset' m c t a ⟨0, hn⟩ ha hb (by omega)]
    unfold colsReset
    dsimp only
    refine ⟨?_, ?_, ?_, ?_⟩
    · rw [pay3_apply, pay17_apply (En m c) (Lb m c) a ⟨0, hn⟩ _ hi0 hi1 p]
      rfl
    · rw [pay4_apply, pay18_apply (En m c) (Lb m c) a ⟨0, hn⟩ p]
      rfl
    · rw [pay5_apply, pay1_apply (Lb m c) a ⟨0, hn⟩ _ hi0 hi1 p]
      rfl
    · rw [pay6_apply, pay2_apply (Lb m c) a ⟨0, hn⟩ p]
      rfl
  | n + 1, hn, t, ht => by
    obtain ⟨-, -, -, -, -, -, -, -, -, -, g0, g1⟩ := idx_facts t
    have hN : cfg0.N = 16 := N_0
    have hlt := t.isLt
    have ha : a.val = t.val / 4 := by omega
    have hb : (⟨n + 1, hn⟩ : Fin 4).val = t.val % 4 := by show n + 1 = t.val % 4; omega
    have hi0 : ((grid0.coords t) 0).val = a.val := by rw [g0]; omega
    have hi1 : ((grid0.coords t) 1).val = (⟨n + 1, hn⟩ : Fin 4).val := by rw [g1]; exact hb.symm
    obtain ⟨ih1, ih2, ih3, ih4⟩ := cols_apply a p n (Nat.lt_of_succ_lt hn) ⟨t.val - 1, by omega⟩
      (by show t.val - 1 = 4 * a.val + n; omega)
    rw [colsAt_join' m c t a ⟨n + 1, hn⟩ ha hb (by omega)]
    unfold colsJoin
    dsimp only
    refine ⟨?_, ?_, ?_, ?_⟩
    · rw [pay7_apply, pay17_apply (En m c) (Lb m c) a ⟨n + 1, hn⟩ _ hi0 hi1 p, acc4_succ]
      exact congrArg (fun x => max x (tilePos (En m c) (Lb m c) a ⟨n + 1, hn⟩ p)) ih1
    · rw [pay8_apply, pay18_apply (En m c) (Lb m c) a ⟨n + 1, hn⟩ p, acc4_succ]
      exact congrArg (fun x => min x (tileNeg (En m c) (Lb m c) a ⟨n + 1, hn⟩ p)) ih2
    · rw [pay9_apply, pay1_apply (Lb m c) a ⟨n + 1, hn⟩ _ hi0 hi1 p, acc4_succ]
      exact congrArg (fun x => max x (tileAnyPos (Lb m c) a ⟨n + 1, hn⟩ p)) ih3
    · rw [pay10_apply, pay2_apply (Lb m c) a ⟨n + 1, hn⟩ p, acc4_succ]
      exact congrArg (fun x => max x (tileAnyNeg (Lb m c) a ⟨n + 1, hn⟩ p)) ih4

/-! ## What is stored into the output blocks at the last column run -/

/-- At the last column run the first output block holds, at row `p`, the loss of row `1024 a + p`: the hinge of the
    whole-row farthest positive and nearest negative times the row's indicator. -/
theorem outLoss_apply (a : Fin 4) (p : Fin 1024) (t : Fin cfg0.N) (ht : t.val = 4 * a.val + 3) :
    outLoss (colsAt m c t.val t.isLt) (ix2 p (0 : Fin 1)) = rowLoss (En m c) (Lb m c) (row a p) := by
  obtain ⟨h1, h2, h3, h4⟩ := cols_apply m c a p 3 (by omega) t ht
  unfold outLoss
  rw [pay12_apply, h1, h2, h3, h4, acc4_last, acc4_last, acc4_last, acc4_last]
  unfold rowLoss hinge
  rw [hardPos_row, hardNeg_row, validF_row]

/-- And the second output block the row's indicator. -/
theorem outValid_apply (a : Fin 4) (p : Fin 1024) (t : Fin cfg0.N) (ht : t.val = 4 * a.val + 3) :
    outValid (colsAt m c t.val t.isLt) (ix2 p (0 : Fin 1)) = validF (Lb m c) (row a p) := by
  obtain ⟨-, -, h3, h4⟩ := cols_apply m c a p 3 (by omega) t ht
  unfold outValid
  rw [pay11_apply, h3, h4, acc4_last, acc4_last, validF_row]

/-! ## The two output arrays after the run -/

/-- A column index has second coordinate `0`. -/
theorem idx_col (y : S1024x1.Idx) : y = ix2 (n0 := 1024) (n1 := 1) (y 0) (0 : Fin 1) :=
  (eq_ix2 (n0 := 1024) (n1 := 1) y).trans
    (congrArg (fun z : Fin 1 => ix2 (n0 := 1024) (n1 := 1) (y 0) z) (Subsingleton.elim (α := Fin 1) (y 1) 0))

/-- A function of the row as an array of 4096 rows and one column. -/
abbrev colArr4 (g : Fin 4096 → EReal) : Buf (Elt Ideal) ((c : Thread nD τ).loc main_v5_0) :=
  fun j : S4096x1.Idx => g (j 0)
abbrev colArr5 (g : Fin 4096 → EReal) : Buf (Elt Ideal) ((c : Thread nD τ).loc main_v5_1) :=
  fun j : S4096x1.Idx => g (j 0)

/-- What point `t` writes back into the first output array: if at every last column run the block holds, at row `p`,
    a function `g` of the row `1024 a + p`, it is the point's block of the array `r ↦ g r`. -/
theorem flushed4_of (g : Fin 4096 → EReal)
    (hg : ∀ (a : Fin 4) (p : Fin 1024) (t : Fin cfg0.N), t.val = 4 * a.val + 3 →
      outLoss (colsAt m c t.val t.isLt) (ix2 p (0 : Fin 1)) = g (row a p))
    (t : Fin cfg0.N) (hf : (cfg0.win 4).flush t = true) :
    (dats m 0 c).flushed 4 t = ((cfg0.win 4).blk t).view.read (Elt Ideal) (colArr4 c g) := by
  have h3 : t.val % 4 = 3 := (flush0_4 t).mp hf
  have hN : cfg0.N = 16 := N_0
  have hlt := t.isLt
  obtain ⟨-, -, -, -, -, -, e0, -⟩ := idx_facts t
  show (cfg0.win 4).cut (grid0.coords t) ((dats m 0 c).after 4 t) = _
  rw [after4]
  funext y
  rw [View.read_apply]
  show outLoss (colsAt m c t.val t.isLt) (y : S1024x1.Idx) = g ((((cfg0.win 4).blk t).view.emb y) 0)
  have hy := idx_col y
  have hgy := hg ⟨t.val / 4, by omega⟩ (y 0) t (by show t.val = 4 * (t.val / 4) + 3; omega)
  refine (congrArg (outLoss (colsAt m c t.val t.isLt)) hy).trans (hgy.trans ?_)
  refine congrArg g (Fin.ext ?_)
  show t.val / 4 * 1024 + (y 0).val = win0_4.index t (0 : Fin 2) * 1024 + 1 * (y 0).val
  rw [e0]; omega

/-- The second output array likewise. -/
theorem flushed5_of (g : Fin 4096 → EReal)
    (hg : ∀ (a : Fin 4) (p : Fin 1024) (t : Fin cfg0.N), t.val = 4 * a.val + 3 →
      outValid (colsAt m c t.val t.isLt) (ix2 p (0 : Fin 1)) = g (row a p))
    (t : Fin cfg0.N) (hf : (cfg0.win 5).flush t = true) :
    (dats m 0 c).flushed 5 t = ((cfg0.win 5).blk t).view.read (Elt Ideal) (colArr5 c g) := by
  have h3 : t.val % 4 = 3 := (flush0_5 t).mp hf
  have hN : cfg0.N = 16 := N_0
  have hlt := t.isLt
  obtain ⟨-, -, -, -, -, -, -, -, e0, -⟩ := idx_facts t
  show (cfg0.win 5).cut (grid0.coords t) ((dats m 0 c).after 5 t) = _
  rw [after5]
  funext y
  rw [View.read_apply]
  show outValid (colsAt m c t.val t.isLt) (y : S1024x1.Idx) = g ((((cfg0.win 5).blk t).view.emb y) 0)
  have hy := idx_col y
  have hgy := hg ⟨t.val / 4, by omega⟩ (y 0) t (by show t.val = 4 * (t.val / 4) + 3; omega)
  refine (congrArg (outValid (colsAt m c t.val t.isLt)) hy).trans (hgy.trans ?_)
  refine congrArg g (Fin.ext ?_)
  show t.val / 4 * 1024 + (y 0).val = win0_5.index t (0 : Fin 2) * 1024 + 1 * (y 0).val
  rw [e0]; omega

/-- Row `r` of the first output array is written back by the point `4 (r / 1024) + 3`: the blocks written back
    cover the array. -/
theorem arr4_of (g : Fin 4096 → EReal)
    (hg : ∀ (a : Fin 4) (p : Fin 1024) (t : Fin cfg0.N), t.val = 4 * a.val + 3 →
      outLoss (colsAt m c t.val t.isLt) (ix2 p (0 : Fin 1)) = g (row a p)) :
    (dats m 0 c).arrAt 4 cfg0.N = colArr4 c g :=
  (dats m 0 c).arrAt_eq_of_cover 4 (colArr4 c g) (flushed4_of m c g hg) fun i => by
    have hN : cfg0.N = 16 := N_0
    have hi0 : (i 0 : Nat) < 4096 := (i 0).isLt
    have hi1 : (i 1 : Nat) < 1 := (i 1).isLt
    obtain ⟨t, ht⟩ : ∃ t : Fin cfg0.N, t.val = 4 * ((i 0 : Nat) / 1024) + 3 := ⟨⟨4 * ((i 0 : Nat) / 1024) + 3, by omega⟩, rfl⟩
    obtain ⟨-, -, -, -, -, -, e0, e1, -⟩ := idx_facts t
    refine ⟨t, (flush0_4 t).mpr (by omega), ?_⟩
    show i ∈ ((View.whole main_v5_0).slice (win0_4.rect t)).set
    rw [View.set_slice_whole, Rect.mem_set_unit]
    intro ax
    match ax with
    | ⟨0, _⟩ =>
      show win0_4.index t (0 : Fin 2) * 1024 ≤ (i 0 : Nat) ∧ (i 0 : Nat) < win0_4.index t (0 : Fin 2) * 1024 + 1024
      rw [e0]; omega
    | ⟨1, _⟩ =>
      show win0_4.index t (1 : Fin 2) * 1 ≤ (i 1 : Nat) ∧ (i 1 : Nat) < win0_4.index t (1 : Fin 2) * 1 + 1
      rw [e1]; omega

/-- The second output array likewise. -/
theorem arr5_of (g : Fin 4096 → EReal)
    (hg : ∀ (a : Fin 4) (p : Fin 1024) (t : Fin cfg0.N), t.val = 4 * a.val + 3 →
      outValid (colsAt m c t.val t.isLt) (ix2 p (0 : Fin 1)) = g (row a p)) :
    (dats m 0 c).arrAt 5 cfg0.N = colArr5 c g :=
  (dats m 0 c).arrAt_eq_of_cover 5 (colArr5 c g) (flushed5_of m c g hg) fun i => by
    have hN : cfg0.N = 16 := N_0
    have hi0 : (i 0 : Nat) < 4096 := (i 0).isLt
    have hi1 : (i 1 : Nat) < 1 := (i 1).isLt
    obtain ⟨t, ht⟩ : ∃ t : Fin cfg0.N, t.val = 4 * ((i 0 : Nat) / 1024) + 3 := ⟨⟨4 * ((i 0 : Nat) / 1024) + 3, by omega⟩, rfl⟩
    obtain ⟨-, -, -, -, -, -, -, -, e0, e1, -⟩ := idx_facts t
    refine ⟨t, (flush0_5 t).mpr (by omega), ?_⟩
    show i ∈ ((View.whole main_v5_1).slice (win0_5.rect t)).set
    rw [View.set_slice_whole, Rect.mem_set_unit]
    intro ax
    match ax with
    | ⟨0, _⟩ =>
      show win0_5.index t (0 : Fin 2) * 1024 ≤ (i 0 : Nat) ∧ (i 0 : Nat) < win0_5.index t (0 : Fin 2) * 1024 + 1024
      rw [e0]; omega
    | ⟨1, _⟩ =>
      show win0_5.index t (1 : Fin 2) * 1 ≤ (i 1 : Nat) ∧ (i 1 : Nat) < win0_5.index t (1 : Fin 2) * 1 + 1
      rw [e1]; omega

/-- The first output array after the run holds the row losses. -/
theorem final4 : (dats m 0 c).arrAt 4 cfg0.N = fun j : S4096x1.Idx => Triplet.rowLoss (En m c) (Lb m c) (j 0) :=
  arr4_of m c (rowLoss (En m c) (Lb m c)) (outLoss_apply m c)

/-- The second output array after the run holds the row indicators. -/
theorem final5 : (dats m 0 c).arrAt 5 cfg0.N = fun j : S4096x1.Idx => Triplet.validF (Lb m c) (j 0) :=
  arr5_of m c (validF (Lb m c)) (outValid_apply m c)

end Cert.KernelIdeal.KValue

end
-- ==== Proof.RefParts.lean ====
import proofs.«134814_j36069135351986_1_alg».proof.Proof.Gen.ReferenceIdeal.Run
import proofs.«134814_j36069135351986_1_alg».proof.Proof.Gen.ReferenceIdeal.Read
import proofs.«134814_j36069135351986_1_alg».proof.Proof.Spec

/-! The reference's distance matrix and its two masks, read at a row and a column: the entry of the distance
    matrix is the cosine distance of the two rows of the normalised matrix; the positive mask's bit is set
    exactly at a column of the same label other than the row itself, the negative mask's at a column of
    another label. -/

noncomputable section

open scoped BigOperators

namespace Cert.ReferenceIdeal.RefValue

open Cert.ReferenceIdeal Cert.ReferenceIdeal.Gen Cert.ReferenceIdeal.Read Idealize.ShloMosaic Idealize.ShloMosaic.ValueIdx

/-- The distance matrix at row r, column c. -/
theorem v8_at (x0 : (⟨S4096x128, .f32⟩ : BufTy).Contents (Elt Ideal)) (r c : Fin 4096) :
    val_main_v8 (F := Ideal) x0 (ix2 r c) = Triplet.dist (val_main_v4 (F := Ideal) x0) r c := by
  rw [val_main_v8_apply, val_main_v6_apply, val_main_v7_apply, val_main_cst_0_apply]
  unfold Triplet.dist
  rw [Ideal.subf_def, Ideal.ofBits_def]
  refine congrArg _ (Finset.sum_congr rfl fun k _ => ?_)
  rw [val_main_v5_apply]
  have hl : lidx_main_v6 (ix2 r c) k = ix2 r k :=
    funext fun a => by match a with | ⟨0,_⟩ => rfl | ⟨1,_⟩ => rfl
  have hr : idx_main_v5 (ridx_main_v6 (ix2 r c) k) = ix2 c k :=
    funext fun a => by match a with | ⟨0,_⟩ => rfl | ⟨1,_⟩ => rfl
  rw [hl, hr]

/-! ## One-bit words -/

/-- An equality test's bit is set exactly when the words are equal. -/
theorem cmpi_eq_one_iff {w : Nat} (a b : BitVec w) : IntOp.cmpi .eq a b = 1#1 ↔ a = b := by
  show BitVec.ofBool (a == b) = 1#1 ↔ a = b
  by_cases h : a = b
  · subst h; simp
  · have hb : (a == b) = false := by simpa using h
    rw [hb]
    exact ⟨fun h0 => absurd h0 (by decide), fun h0 => absurd h0 h⟩

/-- A bit and the complement of another: set exactly when the first is and the second is not. -/
theorem and_not_eq_one_iff (a b : BitVec 1) : IntOp.andi a (~~~b) = 1#1 ↔ a = 1#1 ∧ ¬ b = 1#1 := by
  unfold IntOp.andi
  rcases BitVec.eq_zero_or_eq_one a with h | h <;> rcases BitVec.eq_zero_or_eq_one b with h' | h' <;>
    subst h <;> subst h' <;> decide

/-- A bit's complement is set exactly when the bit is not. -/
theorem not_eq_one_iff (a : BitVec 1) : ~~~a = 1#1 ↔ ¬ a = 1#1 := by
  rcases BitVec.eq_zero_or_eq_one a with h | h <;> subst h <;> decide

/-- The label comparison at (r, c): the column's label against the row's. -/
theorem v13_at (x1 : (⟨S4096, .i32⟩ : BufTy).Contents (Elt Ideal)) (r c : Fin 4096) :
    val_main_v13 (F := Ideal) x1 (ix2 r c) = IntOp.cmpi .eq (x1 (ix1 c)) (x1 (ix1 r)) := by
  rw [val_main_v13_apply, val_main_v11_apply, val_main_v9_apply, val_main_v12_apply, val_main_v10_apply]
  have hc : idx_main_v9 (idx_main_v11 (ix2 r c)) = ix1 c :=
    funext fun a => by match a with | ⟨0,_⟩ => rfl
  have hr : idx_main_v10 (idx_main_v12 (ix2 r c)) = ix1 r :=
    funext fun a => by match a with | ⟨0,_⟩ => rfl
  rw [hc, hr]

/-- The diagonal test at (r, c). -/
theorem v18_at_iff (r c : Fin 4096) :
    val_main_v18 (F := Ideal) (ix2 r c) = 1#1 ↔ r = c := by
  rw [val_main_v18_apply, val_main_v17_apply, val_main_v14_apply, val_main_v15_apply, val_main_v16_apply,
    val_main_c_apply, cmpi_eq_one_iff]
  show BitVec.ofNat 32 r.val + 0#32 = BitVec.ofNat 32 c.val ↔ r = c
  rw [BitVec.add_zero]
  constructor
  · intro h
    have := congrArg BitVec.toNat h
    simp only [BitVec.toNat_ofNat] at this
    have hr := r.isLt; have hc := c.isLt
    exact Fin.ext (by omega)
  · rintro rfl; rfl

/-- The positive mask at (r, c). -/
theorem v20_at_iff (x1 : (⟨S4096, .i32⟩ : BufTy).Contents (Elt Ideal)) (r c : Fin 4096) :
    val_main_v20 (F := Ideal) x1 (ix2 r c) = 1#1 ↔ Triplet.isPos x1 r c := by
  rw [val_main_v20_apply, val_main_v19_apply, and_not_eq_one_iff, v13_at, cmpi_eq_one_iff, v18_at_iff]
  unfold Triplet.isPos
  exact ⟨fun ⟨h1, h2⟩ => ⟨h1.symm, h2⟩, fun ⟨h1, h2⟩ => ⟨h1.symm, h2⟩⟩

/-- The negative mask at (r, c). -/
theorem v21_at_iff (x1 : (⟨S4096, .i32⟩ : BufTy).Contents (Elt Ideal)) (r c : Fin 4096) :
    val_main_v21 (F := Ideal) x1 (ix2 r c) = 1#1 ↔ Triplet.isNeg x1 r c := by
  rw [val_main_v21_apply, not_eq_one_iff, v13_at, cmpi_eq_one_iff]
  unfold Triplet.isNeg
  exact ⟨fun h e => h e.symm, fun h e => h e.symm⟩

end Cert.ReferenceIdeal.RefValue

end
-- ==== Proof.RefRows.lean ====
import proofs.«134814_j36069135351986_1_alg».proof.Proof.RefParts

/-! The selected distances and their reductions along a row: the maximum over the positives' distances is the
    hardest positive, the minimum over the negatives' the hardest negative (a fold of the maximum from minus
    infinity is a supremum, of the minimum from plus infinity an infimum), and the disjunction of a mask's row
    is set exactly when the row has a column of that kind. -/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The sentinels' words -/

/-- The word of minus infinity. -/
theorem ofBits_neg_inf : Ideal.ofBits .f32 0xFF800000#32 = ⊥ := by simp [Ideal.ofBits, Ideal.ieee]
/-- The word of plus infinity. -/
theorem ofBits_pos_inf : Ideal.ofBits .f32 0x7F800000#32 = ⊤ := by simp [Ideal.ofBits, Ideal.ieee]

/-! ## Folds -/

/-- A fold of the maximum from the bottom is the supremum. -/
theorem fold_maximumf_eq_sup {ι : Type} (s : Finset ι) (f : ι → EReal) :
    s.fold (FloatOps.maximumf (F := Ideal) (φ := .f32)) (⊥ : EReal) f = s.sup f := by
  induction s using Finset.cons_induction with
  | empty => rfl
  | cons a s ha ih => rw [Finset.fold_cons, Finset.sup_cons, ih]; rfl

/-- A fold of the minimum from the top is the infimum. -/
theorem fold_minimumf_eq_inf {ι : Type} (s : Finset ι) (f : ι → EReal) :
    s.fold (FloatOps.minimumf (F := Ideal) (φ := .f32)) (⊤ : EReal) f = s.inf f := by
  induction s using Finset.cons_induction with
  | empty => rfl
  | cons a s ha ih => rw [Finset.fold_cons, Finset.inf_cons, ih]; rfl

/-- The disjunction of two bits is set exactly when one of them is. -/
theorem ori_eq_one_iff (a b : BitVec 1) : IntOp.ori a b = 1#1 ↔ a = 1#1 ∨ b = 1#1 := by
  unfold IntOp.ori
  rcases BitVec.eq_zero_or_eq_one a with h | h <;> rcases BitVec.eq_zero_or_eq_one b with h' | h' <;>
    subst h <;> subst h' <;> decide

/-- The conjunction of two bits is set exactly when both are. -/
theorem andi_eq_one_iff (a b : BitVec 1) : IntOp.andi a b = 1#1 ↔ a = 1#1 ∧ b = 1#1 := by
  unfold IntOp.andi
  rcases BitVec.eq_zero_or_eq_one a with h | h <;> rcases BitVec.eq_zero_or_eq_one b with h' | h' <;>
    subst h <;> subst h' <;> decide

/-- A fold of the disjunction from the clear bit is set exactly when some element is. -/
theorem fold_ori_eq_one_iff {ι : Type} (s : Finset ι) (f : ι → BitVec 1) :
    s.fold IntOp.ori 0#1 f = 1#1 ↔ ∃ k ∈ s, f k = 1#1 := by
  induction s using Finset.cons_induction with
  | empty =>
    rw [Finset.fold_empty]
    exact ⟨fun h => absurd h (by decide), fun ⟨_, hk, _⟩ => absurd hk (Finset.notMem_empty _)⟩
  | cons a s ha ih =>
    rw [Finset.fold_cons, ori_eq_one_iff, ih]
    simp only [Finset.mem_cons, exists_eq_or_imp]

/-- The row index over which a reduction along the columns runs: the row's index with the column inserted. -/
theorem lift_row (h : S4096x4096.Reduces [1] S4096) (r k : Fin 4096) : h.lift (ix1 r) k = ix2 r k :=
  funext fun a => Fin.ext (by match a with | ⟨0,_⟩ => rfl | ⟨1,_⟩ => rfl)

/-! ## The selected distances and their row reductions -/

/-- The positives' distances, minus one elsewhere. -/
theorem v22_at (x0 : (⟨S4096x128, .f32⟩ : BufTy).Contents (Elt Ideal)) (x1 : (⟨S4096, .i32⟩ : BufTy).Contents (Elt Ideal))
    (r c : Fin 4096) :
    val_main_v22 (F := Ideal) x0 x1 (ix2 r c)
      = if Triplet.isPos x1 r c then Triplet.dist (val_main_v4 (F := Ideal) x0) r c else Ideal.ofBits .f32 0xBF800000#32 := by
  rw [val_main_v22_apply, v8_at, val_main_call1_v1_apply, val_main_call1_v0_apply, val_main_cst_1_apply, Ideal.ofBits_def]
  unfold Scalar.select
  exact if_congr (v20_at_iff x1 r c) rfl rfl

/-- The negatives' distances, three elsewhere. -/
theorem v24_at (x0 : (⟨S4096x128, .f32⟩ : BufTy).Contents (Elt Ideal)) (x1 : (⟨S4096, .i32⟩ : BufTy).Contents (Elt Ideal))
    (r c : Fin 4096) :
    val_main_v24 (F := Ideal) x0 x1 (ix2 r c)
      = if Triplet.isNeg x1 r c then Triplet.dist (val_main_v4 (F := Ideal) x0) r c else Ideal.ofBits .f32 0x40400000#32 := by
  rw [val_main_v24_apply, v8_at, val_main_call2_v1_apply, val_main_call2_v0_apply, val_main_cst_3_apply, Ideal.ofBits_def]
  unfold Scalar.select
  exact if_congr (v21_at_iff x1 r c) rfl rfl

/-- The row maximum of the positives' distances is the hardest positive. -/
theorem v23_at (x0 : (⟨S4096x128, .f32⟩ : BufTy).Contents (Elt Ideal)) (x1 : (⟨S4096, .i32⟩ : BufTy).Contents (Elt Ideal))
    (r : Fin 4096) :
    val_main_v23 (F := Ideal) x0 x1 (ix1 r) = Triplet.hardPos (val_main_v4 (F := Ideal) x0) x1 r := by
  unfold val_main_v23
  have h : S4096x4096.Reduces [1] S4096 := by decide
  refine (Host.reduce_eq_fold_single _ _ _ reducesTo_S4096x4096_S4096_d1 h h_S_ (ix1 r)).trans ?_
  rw [val_main_cst_2_apply, Ideal.ofBits_def, ofBits_neg_inf]
  refine (fold_maximumf_eq_sup _ _).trans ?_
  unfold Triplet.hardPos
  show (Finset.univ : Finset (Fin 4096)).sup (fun k => val_main_v22 (F := Ideal) x0 x1 (h.lift (ix1 r) k)) = _
  refine Finset.sup_congr rfl fun k _ => ?_
  rw [lift_row h r k, v22_at]

/-- The row minimum of the negatives' distances is the hardest negative. -/
theorem v25_at (x0 : (⟨S4096x128, .f32⟩ : BufTy).Contents (Elt Ideal)) (x1 : (⟨S4096, .i32⟩ : BufTy).Contents (Elt Ideal))
    (r : Fin 4096) :
    val_main_v25 (F := Ideal) x0 x1 (ix1 r) = Triplet.hardNeg (val_main_v4 (F := Ideal) x0) x1 r := by
  unfold val_main_v25
  have h : S4096x4096.Reduces [1] S4096 := by decide
  refine (Host.reduce_eq_fold_single _ _ _ reducesTo_S4096x4096_S4096_d1 h h_S_ (ix1 r)).trans ?_
  rw [val_main_cst_4_apply, Ideal.ofBits_def, ofBits_pos_inf]
  refine (fold_minimumf_eq_inf _ _).trans ?_
  unfold Triplet.hardNeg
  show (Finset.univ : Finset (Fin 4096)).inf (fun k => val_main_v24 (F := Ideal) x0 x1 (h.lift (ix1 r) k)) = _
  refine Finset.inf_congr rfl fun k _ => ?_
  rw [lift_row h r k, v24_at]

/-- The row has a positive. -/
theorem v26_at_iff (x1 : (⟨S4096, .i32⟩ : BufTy).Contents (Elt Ideal)) (r : Fin 4096) :
    val_main_v26 (F := Ideal) x1 (ix1 r) = 1#1 ↔ ∃ c, Triplet.isPos x1 r c := by
  unfold val_main_v26
  have h : S4096x4096.Reduces [1] S4096 := by decide
  rw [Host.reduce_eq_fold_single _ _ _ reducesTo_S4096x4096_S4096_d1 h h_S_ (ix1 r), val_main_c_5_apply,
    fold_ori_eq_one_iff]
  show (∃ k ∈ (Finset.univ : Finset (Fin 4096)), val_main_v20 (F := Ideal) x1 (h.lift (ix1 r) k) = 1#1) ↔ _
  refine exists_congr fun k => ?_
  rw [lift_row h r k, v20_at_iff]
  exact and_iff_right (Finset.mem_univ k)

/-- The row has a negative. -/
theorem v27_at_iff (x1 : (⟨S4096, .i32⟩ : BufTy).Contents (Elt Ideal)) (r : Fin 4096) :
    val_main_v27 (F := Ideal) x1 (ix1 r) = 1#1 ↔ ∃ c, Triplet.isNeg x1 r c := by
  unfold val_main_v27
  have h : S4096x4096.Reduces [1] S4096 := by decide
  rw [Host.reduce_eq_fold_single _ _ _ reducesTo_S4096x4096_S4096_d1 h h_S_ (ix1 r), val_main_c_6_apply,
    fold_ori_eq_one_iff]
  show (∃ k ∈ (Finset.univ : Finset (Fin 4096)), val_main_v21 (F := Ideal) x1 (h.lift (ix1 r) k) = 1#1) ↔ _
  refine exists_congr fun k => ?_
  rw [lift_row h r k, v21_at_iff]
  exact and_iff_right (Finset.mem_univ k)

/-- The row counts: it has a positive and a negative. -/
theorem v28_at_iff (x1 : (⟨S4096, .i32⟩ : BufTy).Contents (Elt Ideal)) (r : Fin 4096) :
    val_main_v28 (F := Ideal) x1 (ix1 r) = 1#1 ↔ (∃ c, Triplet.isPos x1 r c) ∧ (∃ c, Triplet.isNeg x1 r c) := by
  rw [val_main_v28_apply, andi_eq_one_iff, v26_at_iff, v27_at_iff]

end Cert.ReferenceIdeal.RefValue

end
-- ==== Proof.RefValue.lean ====
import proofs.«134814_j36069135351986_1_alg».proof.Proof.RefRows

/-! The reference's result, read one operation at a time, is the mean hinge over the rows that count: the hinge of a
    row from its hardest positive and negative, the row's contribution (the hinge where the row counts, zero
    elsewhere), the sum of the contributions, the integer count of the rows that count (a sum of 4096 zero-or-one
    words, which cannot wrap) taken to at least one and read as an extended real, and the quotient of the two. -/

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Sums and folds over a rank-one index set -/

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate … -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- … and a fold over it the fold over the coordinate. -/
theorem fold_idx1 {α : Type} (op : α → α → α) [Std.Commutative op] [Std.Associative op] (b : α) {n : Nat}
    (f : (⟨1, ![n]⟩ : Shape).Idx → α) :
    (Finset.univ : Finset (⟨1, ![n]⟩ : Shape).Idx).fold op b f
      = (Finset.univ : Finset (Fin n)).fold op b (fun a => f (ix1 a)) := by
  rw [← Finset.map_univ_equiv (idxEquiv1 (n := n)).symm, Finset.fold_map]
  rfl

/-! ## The hinge and the row's contribution -/

/-- The hinge of a row. -/
theorem v32_at (x0 : (⟨S4096x128, .f32⟩ : BufTy).Contents (Elt Ideal)) (x1 : (⟨S4096, .i32⟩ : BufTy).Contents (Elt Ideal))
    (r : Fin 4096) :
    val_main_v32 (F := Ideal) x0 x1 (ix1 r) = Triplet.hinge (val_main_v4 (F := Ideal) x0) x1 r := by
  rw [val_main_v32_apply, val_main_v31_apply, val_main_v29_apply, v23_at, v25_at, val_main_v30_apply,
    val_main_cst_7_apply, val_main_call3_v0_apply, val_main_call3_cst_apply]
  rw [Ideal.maximumf_def, Ideal.addf_def, Ideal.subf_def, Ideal.ofBits_def, Ideal.ofBits_def, Ideal.ofBits_zero_f32]
  rfl

/-- A row that counts has indicator one … -/
theorem validF_of (x1 : (⟨S4096, .i32⟩ : BufTy).Contents (Elt Ideal)) (r : Fin 4096)
    (hv : (∃ c, Triplet.isPos x1 r c) ∧ (∃ c, Triplet.isNeg x1 r c)) : Triplet.validF x1 r = 1 := by
  simp [Triplet.validF, hv]

/-- … and one that does not, zero. -/
theorem validF_of_not (x1 : (⟨S4096, .i32⟩ : BufTy).Contents (Elt Ideal)) (r : Fin 4096)
    (hv : ¬((∃ c, Triplet.isPos x1 r c) ∧ (∃ c, Triplet.isNeg x1 r c))) : Triplet.validF x1 r = 0 := by
  simp [Triplet.validF, hv]

/-- The row's contribution: its hinge when it counts, zero otherwise. -/
theorem v33_at (x0 : (⟨S4096x128, .f32⟩ : BufTy).Contents (Elt Ideal)) (x1 : (⟨S4096, .i32⟩ : BufTy).Contents (Elt Ideal))
    (r : Fin 4096) :
    val_main_v33 (F := Ideal) x0 x1 (ix1 r) = Triplet.rowLoss (val_main_v4 (F := Ideal) x0) x1 r := by
  rw [val_main_v33_apply, v32_at, val_main_call4_v1_apply, val_main_call4_v0_apply, val_main_cst_8_apply,
    Ideal.ofBits_def, Ideal.ofBits_zero_f32]
  unfold Triplet.rowLoss
  by_cases hv : (∃ c, Triplet.isPos x1 r c) ∧ (∃ c, Triplet.isNeg x1 r c)
  · rw [(v28_at_iff x1 r).mpr hv, select_one, validF_of x1 r hv, mul_one]
  · rw [eq_zero_of_ne_one (fun h => hv ((v28_at_iff x1 r).mp h)), select_zero, validF_of_not x1 r hv, mul_zero]

/-- The numerator: the sum of the rows' contributions. -/
theorem v34_at (x0 : (⟨S4096x128, .f32⟩ : BufTy).Contents (Elt Ideal)) (x1 : (⟨S4096, .i32⟩ : BufTy).Contents (Elt Ideal))
    (i : S_.Idx) :
    val_main_v34 (F := Ideal) x0 x1 i = ∑ r : Fin 4096, Triplet.rowLoss (val_main_v4 (F := Ideal) x0) x1 r := by
  rw [val_main_v34_apply, val_main_cst_9_apply, Ideal.ofBits_def, Ideal.ofBits_zero_f32, zero_add]
  exact (sum_idx1 _).trans (Finset.sum_congr rfl fun r _ => v33_at x0 x1 r)

/-! ## The number of rows that count -/

/-- A row's indicator word is one when it counts … -/
theorem v35_of (x1 : (⟨S4096, .i32⟩ : BufTy).Contents (Elt Ideal)) (r : Fin 4096)
    (hv : (∃ c, Triplet.isPos x1 r c) ∧ (∃ c, Triplet.isNeg x1 r c)) : val_main_v35 (F := Ideal) x1 (ix1 r) = 1#32 := by
  rw [val_main_v35_apply, (v28_at_iff x1 r).mpr hv]; rfl

/-- … and zero when it does not. -/
theorem v35_of_not (x1 : (⟨S4096, .i32⟩ : BufTy).Contents (Elt Ideal)) (r : Fin 4096)
    (hv : ¬((∃ c, Triplet.isPos x1 r c) ∧ (∃ c, Triplet.isNeg x1 r c))) : val_main_v35 (F := Ideal) x1 (ix1 r) = 0#32 := by
  rw [val_main_v35_apply, eq_zero_of_ne_one (fun h => hv ((v28_at_iff x1 r).mp h))]; rfl

/-- The integer count is the integer sum of the rows' indicator words. -/
theorem v36_fold (x1 : (⟨S4096, .i32⟩ : BufTy).Contents (Elt Ideal)) (i : S_.Idx) :
    val_main_v36 (F := Ideal) x1 i
      = (Finset.univ : Finset (Fin 4096)).fold IntOp.addi 0#32 (fun k => val_main_v35 (F := Ideal) x1 (ix1 k)) := by
  unfold val_main_v36
  rw [Host.reduce_eq_fold, val_main_c_10_apply, Finset.filter_true_of_mem fun j _ => funext fun b => b.elim0]
  exact fold_idx1 _ _ _

/-- Words that are each zero or one, beside extended reals that are zero or one at the same places: the integer
    sum of the words is the word of some number, no more than the number of places, and the sum of the extended
    reals is that number. -/
theorem count_both {ι : Type} (s : Finset ι) (f : ι → BitVec 32) (g : ι → EReal)
    (h : ∀ k, (f k = 1#32 ∧ g k = 1) ∨ (f k = 0#32 ∧ g k = 0)) :
    ∃ n : ℕ, n ≤ s.card ∧ s.fold IntOp.addi 0#32 f = BitVec.ofNat 32 n ∧ ∑ k ∈ s, g k = ((n : ℝ) : EReal) := by
  classical
  induction s using Finset.induction_on with
  | empty => exact ⟨0, le_rfl, rfl, by simp⟩
  | insert a s ha ih =>
    obtain ⟨n, hn, hf, hg⟩ := ih
    rw [Finset.fold_insert ha, Finset.sum_insert ha, hf, hg, Finset.card_insert_of_notMem ha]
    rcases h a with ⟨e1, e2⟩ | ⟨e1, e2⟩
    · refine ⟨n + 1, by omega, ?_, ?_⟩
      · rw [e1]
        show 1#32 + BitVec.ofNat 32 n = BitVec.ofNat 32 (n + 1)
        rw [Nat.add_comm, BitVec.ofNat_add]
      · rw [e2, Nat.cast_add, Nat.cast_one, EReal.coe_add, EReal.coe_one, add_comm]
    · refine ⟨n, by omega, ?_, ?_⟩
      · rw [e1]
        show 0#32 + BitVec.ofNat 32 n = BitVec.ofNat 32 n
        rw [BitVec.zero_add]
      · rw [e2, zero_add]

/-- A small natural number's word, read signed, is the number. -/
theorem toInt_ofNat_small {n : ℕ} (hn : n ≤ 4096) : (BitVec.ofNat 32 n).toInt = (n : ℤ) := by
  rw [BitVec.toInt_eq_toNat_cond, BitVec.toNat_ofNat, Nat.mod_eq_of_lt (by omega)]
  split <;> omega

/-- The signed maximum with one of a small number's word, read signed. -/
theorem maxsi_one_toInt {n : ℕ} (hn : n ≤ 4096) : (IntOp.maxsi (BitVec.ofNat 32 n) 1#32).toInt = max (n : ℤ) 1 := by
  unfold IntOp.maxsi
  have h1 : (1#32 : BitVec 32).toInt = 1 := by decide
  have hn' := toInt_ofNat_small hn
  by_cases h : (1#32 : BitVec 32).slt (BitVec.ofNat 32 n) = true
  · rw [if_pos h, hn']
    have : (1 : ℤ) < n := by simpa [BitVec.slt, h1, hn'] using h
    omega
  · rw [if_neg h, h1]
    have : ¬ (1 : ℤ) < n := by simpa [BitVec.slt, h1, hn'] using h
    omega

/-- The denominator: the number of rows that count, at least one. -/
theorem v38_at (x1 : (⟨S4096, .i32⟩ : BufTy).Contents (Elt Ideal)) (i : S_.Idx) :
    val_main_v38 (F := Ideal) x1 i = max (∑ r : Fin 4096, Triplet.validF x1 r) 1 := by
  obtain ⟨n, hn, hf, hg⟩ := count_both (Finset.univ : Finset (Fin 4096))
    (fun k => val_main_v35 (F := Ideal) x1 (ix1 k)) (fun r => Triplet.validF x1 r) (fun k => by
      by_cases hv : (∃ c, Triplet.isPos x1 k c) ∧ (∃ c, Triplet.isNeg x1 k c)
      · exact Or.inl ⟨v35_of x1 k hv, validF_of x1 k hv⟩
      · exact Or.inr ⟨v35_of_not x1 k hv, validF_of_not x1 k hv⟩)
  have hn' : n ≤ 4096 := by simpa using hn
  rw [val_main_v38_apply, val_main_v37_apply, v36_fold, hf, val_main_c_11_apply, hg]
  show (((IntOp.maxsi (BitVec.ofNat 32 n) 1#32).toInt : ℝ) : EReal) = _
  rw [maxsi_one_toInt hn']
  push_cast
  rfl

/-! ## The result -/

/-- The reference's result is the mean hinge over the rows that count, of the row-normalised matrix. -/
theorem ref_value (x0 : (⟨S4096x128, .f32⟩ : BufTy).Contents (Elt Ideal)) (x1 : (⟨S4096, .i32⟩ : BufTy).Contents (Elt Ideal))
    (i : S_.Idx) :
    val_main_v39 (F := Ideal) x0 x1 i = Triplet.meanLoss (val_main_v4 (F := Ideal) x0) x1 := by
  rw [val_main_v39_apply, Ideal.hostDivf_def, v34_at, v38_at]
  rfl

end Cert.ReferenceIdeal.RefValue

end
-- ==== Proof.KHost.lean ====
import proofs.«134814_j36069135351986_1_alg».proof.Proof.FrameKI.Data
import proofs.«134814_j36069135351986_1_alg».proof.Proof.Gen.KernelIdeal.Launch
import proofs.«134814_j36069135351986_1_alg».proof.Proof.RefValue
import Idealize.ShloMosaic.Lib.StableHlo.Run

/-! The host operations around the kernel's region, at the ideal values. Before the region: the matrix the region
    reads is the reference's row-normalised matrix (the same operations applied to the same argument), and neither
    argument is written. After the region: from the rows' contributions and the rows' indicators, each summed over
    its column, the quotient of the first sum by the larger of the second sum and one — the mean hinge over the rows
    that count — and again neither argument is written. -/

noncomputable section

open scoped BigOperators

namespace Cert.KernelIdeal.KHost

open Cert.KernelIdeal Cert.KernelIdeal.Gen Cert.KernelIdeal.Hand
open Idealize.ShloMosaic Idealize.ShloMosaic.TcCoe Idealize.SL.Sem Idealize.ShloMosaic.StableHlo Idealize.ShloMosaic.ValueIdx

/-- No operation before the region writes the first argument. -/
theorem entry_arg0 (m : (ℓ : Loc nD τ sig) → Buf (Elt Ideal) ℓ) (c : Dev nD) :
    V m c main_arg0 = m ((c.tc : Thread nD τ).loc main_arg0) := by
  dsimp only [V, V0]
  simp only [hostOps0, hostOps0_1, List.flatten_cons, List.flatten_nil, List.append_nil, List.cons_append, List.nil_append]
  after_results

/-- No operation before the region writes the second argument. -/
theorem entry_arg1 (m : (ℓ : Loc nD τ sig) → Buf (Elt Ideal) ℓ) (c : Dev nD) :
    V m c main_arg1 = m ((c.tc : Thread nD τ).loc main_arg1) := by
  dsimp only [V, V0]
  simp only [hostOps0, hostOps0_1, List.flatten_cons, List.flatten_nil, List.append_nil, List.cons_append, List.nil_append]
  after_results

/-- The matrix the region reads is the reference's row-normalised matrix: the same operations on the same argument. -/
theorem entry_v4 (m : (ℓ : Loc nD τ sig) → Buf (Elt Ideal) ℓ) (c : Dev nD) :
    V m c main_v4 = Cert.ReferenceIdeal.Read.val_main_v4 (F := Ideal) (m ((c.tc : Thread nD τ).loc main_arg0)) := by
  dsimp only [V, V0]
  simp only [hostOps0, hostOps0_1, List.flatten_cons, List.flatten_nil, List.append_nil, List.cons_append, List.nil_append]
  after_results
  rfl

/-! ## The operations after the region -/

/-- The word of one. -/
theorem ofBits_one : Ideal.ofBits .f32 0x3F800000#32 = 1 := by
  simp [Ideal.ofBits, Ideal.ieee]
  rw [← EReal.coe_mul, ← EReal.coe_one]
  congr 1
  norm_num

/-- A sum over a column's index set is the sum over its rows. -/
theorem sum_col {M : Type} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The sum of a column over both its axes, from zero: the sum over its rows. -/
theorem reduceAll_apply (y : (⟨S4096x1, .f32⟩ : BufTy).Contents (Elt Ideal)) (i : S_.Idx) :
    Host.reduceAdd (F := Ideal) y (constant (F := Ideal) S_ .f32 0x00000000#32) reducesTo_S4096x1_S_d0_1 h_S_ i
      = ∑ r : Fin 4096, y (ix2 r (0 : Fin 1)) := by
  simp only [Host.reduceAdd, Ideal.hostReduceAdd_def]
  rw [Ideal.hostReduceAdd_total reducesTo_S4096x1_S_d0_1 (fun b => b.elim0) y _ i]
  show Ideal.ofBits .f32 0x00000000#32 + _ = _
  rw [Ideal.ofBits_zero_f32, zero_add]
  exact sum_col _

/-- A host quotient at an index is the quotient of the elements. -/
theorem hostDivf_apply {s : Shape} {φ : FTy} (a b : FVec Ideal s φ) (i : s.Idx) :
    Host.divf a b i = Ideal.div (a i) (b i) := rfl

/-- From the rows' contributions and the rows' indicators in the region's two results, the operations after the
    region leave the mean hinge over the rows that count. -/
theorem tail_value (W : Valuation τ sig (Elt Ideal)) (E : Triplet.SE.Idx → EReal) (L : Triplet.SL.Idx → BitVec 32)
    (h0 : W (Proc.devRef .tc main_v5_0) = fun j : S4096x1.Idx => Triplet.rowLoss E L (j 0))
    (h1 : W (Proc.devRef .tc main_v5_1) = fun j : S4096x1.Idx => Triplet.validF L (j 0)) :
    StableHlo.after hostOps1 W (Proc.devRef .tc main_v9) = fun _ => Triplet.meanLoss E L := by
  simp only [hostOps1]
  after_results
  rw [h0, h1]
  funext i
  rw [hostDivf_apply, maximumf_apply, constant_apply, reduceAll_apply, reduceAll_apply, ofBits_one]
  rfl

/-- The operations after the region write neither argument. -/
theorem tail_keeps (W : Valuation τ sig (Elt Ideal)) (b : Ref sig .tc) (hb : b = main_arg0 ∨ b = main_arg1) :
    StableHlo.after hostOps1 W (Proc.devRef .tc b) = W (Proc.devRef .tc b) := by
  rcases hb with rfl | rfl
  · simp only [hostOps1]
    after_results
  · simp only [hostOps1]
    after_results

end Cert.KernelIdeal.KHost

end
-- ==== Proof.FinalKI.lean ====
import proofs.«134814_j36069135351986_1_alg».proof.Proof.ArgsKI
import proofs.«134814_j36069135351986_1_alg».proof.Proof.KValue
import proofs.«134814_j36069135351986_1_alg».proof.Proof.KHost

/-! The kernel program's result at the ideal values: what the run ends in has the result at the mean hinge over the
    rows that count, of the matrix and the labels the region reads — the reference's row-normalised matrix and the
    labels — and both arguments unchanged. -/

set_option maxRecDepth 16384

noncomputable section

namespace Cert.Proof.TripletKI

open Cert.KernelIdeal Cert.KernelIdeal.Gen Cert.KernelIdeal.Hand
open Idealize.ShloMosaic Idealize.ShloMosaic.TcCoe Idealize.SL.Sem Idealize.ShloMosaic.StableHlo

/-! ## The result at the ideal values -/

/-- What the run ends in has the result at the mean hinge over the rows that count, of the matrix and the labels
    the region reads. -/
theorem value_of_post (m : (ℓ : Loc nD τ sig) → Buf (Elt Ideal) ℓ) (r : PUnit × MemSt nD τ sig (Elt Ideal))
    (h : RunPost m r) (c : Dev nD) :
    r.2.mem ((c.tc : Thread nD τ).loc main_v9) = fun _ => Triplet.meanLoss (KValue.En m c) (KValue.Lb m c) := by
  have hmem : main_v9 ∈ Pipeline.restRefs sig spec0 := by decide
  rw [(h c).2 main_v9 hmem]
  show StableHlo.after hostOps1 (Wexit m c) (Proc.devRef .tc main_v9) = _
  exact KHost.tail_value (Wexit m c) _ _ ((Wexit_v5_0 m c).trans (KValue.final4 m c))
    ((Wexit_v5_1 m c).trans (KValue.final5 m c))

/-- The matrix and the labels the region reads are the reference's row-normalised matrix and the labels. -/
theorem meanLoss_entry (m : (ℓ : Loc nD τ sig) → Buf (Elt Ideal) ℓ) (c : Dev nD) :
    Triplet.meanLoss (KValue.En m c) (KValue.Lb m c)
      = Triplet.meanLoss (Cert.ReferenceIdeal.Read.val_main_v4 (F := Ideal) (m ((c.tc : Thread nD τ).loc main_arg0)))
          (m ((c.tc : Thread nD τ).loc main_arg1)) := by
  unfold KValue.En KValue.Lb
  rw [KHost.entry_v4, KHost.entry_arg1]

/-- From a run ending as the frame says: the result and the unchanged arguments. -/
theorem kernel_value_of (m : (ℓ : Loc nD τ sig) → Buf (Elt Ideal) ℓ) (ρ : Dev nD → PrngReg)
    (hrun : θ_run defs (onTc (τ := τ) (main (F := Ideal))) ⟨m, fun _ => 0, ρ⟩ (RunPost m)) :
    θ_run defs (onTc (τ := τ) (main (F := Ideal))) ⟨m, fun _ => 0, ρ⟩ (fun r => ∀ c : Dev nD,
      r.2.mem ((c.tc : Thread nD τ).loc main_v9) = (fun _ => Triplet.meanLoss (KValue.En m c) (KValue.Lb m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨value_of_post m r h c, args_of_post m r h c⟩) hrun

end Cert.Proof.TripletKI

end
-- ==== Proof.FinalRef.lean ====
import proofs.«134814_j36069135351986_1_alg».proof.Proof.RefValue

/-! The reference's run at the ideal values, with its result read as the mean hinge over the rows that count. -/

set_option maxRecDepth 16384

noncomputable section

namespace Cert.Proof.TripletRef

open Cert.ReferenceIdeal Cert.ReferenceIdeal.Gen
open Idealize.ShloMosaic Idealize.ShloMosaic.TcCoe Idealize.SL.Sem Idealize.ShloMosaic.StableHlo

/-- The reference's result term is the mean hinge over the rows that count, of its row-normalised matrix and its
    labels. -/
theorem res_eq (m' : (ℓ : Loc nD τ sig) → Buf (Elt Ideal) ℓ) (c : Dev nD) :
    Value.res_main_v39 m' c = fun _ => Triplet.meanLoss
      (Read.val_main_v4 (F := Ideal) (m' ((c.tc : Thread nD τ).loc main_arg0))) (m' ((c.tc : Thread nD τ).loc main_arg1)) := by
  rw [Read.val_main_v39_eq]
  funext i
  exact RefValue.ref_value _ _ i

/-- The reference's run: the result at that value, the arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ (fun r => ∀ c : Dev nD,
      r.2.mem ((c.tc : Thread nD τ).loc main_v39) = (fun _ => Triplet.meanLoss
        (Read.val_main_v4 (F := Ideal) (m' ((c.tc : Thread nD τ).loc main_arg0))) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun r h c => ⟨(h c).1.trans (res_eq m' c), (h c).2⟩) (Value.run (F := Ideal) m' ρ')

end Cert.Proof.TripletRef

end
-- ==== Proof.Final.lean ====
import proofs.«134814_j36069135351986_1_alg».proof.Defs
import proofs.«134814_j36069135351986_1_alg».proof.Proof.Gen.Kernel
import proofs.«134814_j36069135351986_1_alg».proof.Proof.Gen.KernelIdeal
import proofs.«134814_j36069135351986_1_alg».proof.Proof.Gen.ReferenceIdeal
import proofs.«134814_j36069135351986_1_alg».proof.Proof.Gen.Pre_finite_inputs
import proofs.«134814_j36069135351986_1_alg».proof.Proof.ArgsK
import proofs.«134814_j36069135351986_1_alg».proof.Proof.FinalKI
import proofs.«134814_j36069135351986_1_alg».proof.Proof.FinalRef

/-! The five claims, each from the runs of the three programs. The two kernel programs' runs are taken as given
    here (every weakly fair execution terminates with the windows' arrays at what the write-backs made of them and
    the bypassing buffers at the contents after the last stretch); the reference's run is read off its operations.
    Both programs end, at the ideal values, with the mean hinge over the rows that count of ONE matrix and ONE label
    vector: the kernel program's prelude is the reference's normalisation of the same argument. No finiteness of the
    inputs is used. -/

set_option maxRecDepth 16384

noncomputable section

namespace Cert.Proof.Triplet

open Idealize.ShloMosaic Idealize.ShloMosaic.TcCoe Idealize.SL.Sem

/-- The word-level kernel program runs and leaves its arguments unchanged. -/
theorem frame_k_of
    (hrun : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (Cert.Kernel.Hand.RunPost m)) :
    Cert.frame_Kernel := fun m ρ _ =>
  (θ_run Cert.Kernel.defs _ _).mono (fun r h c => Cert.Proof.TripletK.args_of_post m r h c) (hrun m ρ)

/-- The kernel program at the ideal values runs and leaves its arguments unchanged. -/
theorem frame_ki_of
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (Cert.KernelIdeal.Hand.RunPost m)) :
    Cert.frame_KernelIdeal := fun m ρ _ =>
  (θ_run Cert.KernelIdeal.defs _ _).mono (fun r h c => Cert.Proof.TripletKI.args_of_post m r h c) (hrun m ρ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal values, from memories agreeing on the arguments, both programs end with the mean hinge over the
    rows that count, of the row-normalised argument matrix and the argument labels. -/
theorem algebraic_of
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (Cert.KernelIdeal.Hand.RunPost m)) :
    Cert.algebraic_KernelIdeal_ReferenceIdeal := by
  intro m ρ m' ρ' _ hagree
  refine ⟨fun c => fun _ => Cert.Triplet.meanLoss (Cert.KernelIdeal.KValue.En m c) (Cert.KernelIdeal.KValue.Lb m c),
    Cert.Proof.TripletKI.kernel_value_of m ρ (hrun m ρ), ?_⟩
  refine (θ_run Cert.ReferenceIdeal.defs _ _).mono (fun r h c => ⟨(h c).1.trans ?_, (h c).2⟩)
    (Cert.Proof.TripletRef.ref_run m' ρ')
  rw [(hagree c).1, (hagree c).2]
  exact (congrArg (fun x : EReal => fun _ => x) (Cert.Proof.TripletKI.meanLoss_entry m c)).symm

end Cert.Proof.Triplet

end
-- ==== Proof.lean ====
/- The proof of `Cert.Claim`: the three programs' frames, the ideal pass's ledger (empty) and the equality of the
   kernel program's and the reference's results at the ideal values. Both end with the mean hinge over the rows that
   count — the sum over the rows of `max (hardest positive − hardest negative + 0.3) 0` at the rows that have a positive
   and a negative, divided by the larger of the number of such rows and one — of the row-normalised argument matrix
   and the argument labels. The kernel computes it one 1024 × 1024 tile of the distance matrix at a time, joining
   the tiles' partial maxima, minima and indicators along each row run; the reference computes it over the whole
   4096 × 4096 matrix. The witnesses of the programs' stated facts come first. -/
import proofs.«134814_j36069135351986_1_alg».proof.Defs
import proofs.«134814_j36069135351986_1_alg».proof.Proof.Gen.Kernel
import proofs.«134814_j36069135351986_1_alg».proof.Proof.Gen.Kernel.Skeleton
import proofs.«134814_j36069135351986_1_alg».proof.Proof.Gen.Kernel.Launch
import proofs.«134814_j36069135351986_1_alg».proof.Proof.Gen.Kernel.Points
import proofs.«134814_j36069135351986_1_alg».proof.Proof.Gen.KernelIdeal
import proofs.«134814_j36069135351986_1_alg».proof.Proof.Gen.KernelIdeal.Skeleton
import proofs.«134814_j36069135351986_1_alg».proof.Proof.Gen.KernelIdeal.Launch
import proofs.«134814_j36069135351986_1_alg».proof.Proof.Gen.KernelIdeal.Points
import proofs.«134814_j36069135351986_1_alg».proof.Proof.Gen.ReferenceIdeal
import proofs.«134814_j36069135351986_1_alg».proof.Proof.Gen.ReferenceIdeal.Run
import proofs.«134814_j36069135351986_1_alg».proof.Proof.Gen.ReferenceIdeal.Read
import proofs.«134814_j36069135351986_1_alg».proof.Proof.Gen.Pre_finite_inputs
import proofs.«134814_j36069135351986_1_alg».proof.Proof.FrameK.Launch
import proofs.«134814_j36069135351986_1_alg».proof.Proof.FrameKI.Launch
import proofs.«134814_j36069135351986_1_alg».proof.Proof.Final
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Triplet.frame_k_of (fun m ρ => Cert.Kernel.Hand.run_main (F := Bits) m ρ),
    Triplet.frame_ki_of (fun m ρ => Cert.KernelIdeal.Hand.run_main (F := Ideal) m ρ),
    Triplet.frame_ri,
    Triplet.preserves,
    Triplet.algebraic_of (fun m ρ => Cert.KernelIdeal.Hand.run_main (F := Ideal) m ρ)⟩

end Cert.Proof

end
